-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x64 .f32) (main_arg6 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S5000x128 : Shape := ⟨2, ![5000, 128]⟩
abbrev S5000x1 : Shape := ⟨2, ![5000, 1]⟩
abbrev S1x64 : Shape := ⟨2, ![1, 64]⟩
abbrev S100000x64 : Shape := ⟨2, ![100000, 64]⟩
abbrev S5000x64 : Shape := ⟨2, ![5000, 64]⟩
abbrev S1600000x64 : Shape := ⟨2, ![1600000, 64]⟩

abbrev nBuf : Space → Nat
  | .hbm => 79
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .f32⟩
  | .hbm, ⟨45, _⟩ => ⟨S1600000x1, .f32⟩
  | .hbm, ⟨46, _⟩ => ⟨S1600000x128, .f32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S100000x1, .f32⟩
  | .hbm, ⟨53, _⟩ => ⟨S1x128, .f32⟩
  | .hbm, ⟨54, _⟩ => ⟨S100000x128, .f32⟩
  | .hbm, ⟨55, _⟩ => ⟨S_, .f32⟩
  | .hbm, ⟨56, _⟩ => ⟨S64, .f32⟩
  | .hbm, ⟨57, _⟩ => ⟨S100000x1, .f32⟩
  | .hbm, ⟨58, _⟩ => ⟨S1x64, .f32⟩
  | .hbm, ⟨59, _⟩ => ⟨S100000x64, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000x64, .f32⟩
  | .hbm, ⟨69, _⟩ => ⟨S_, .f32⟩
  | .hbm, ⟨70, _⟩ => ⟨S100000x64, .f32⟩
  | .hbm, ⟨71, _⟩ => ⟨S1600000x1, .i32⟩
  | .hbm, ⟨72, _⟩ => ⟨S100000x64, .f32⟩
  | .hbm, ⟨73, _⟩ => ⟨S100000x1, .f32⟩
  | .hbm, ⟨74, _⟩ => ⟨S100000x64, .f32⟩
  | .hbm, ⟨75, _⟩ => ⟨S100000x64, .f32⟩
  | .hbm, ⟨76, _⟩ => ⟨S1x64, .f32⟩
  | .hbm, ⟨77, _⟩ => ⟨S100000x64, .f32⟩
  | .hbm, ⟨78, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S128x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_call1_v0 : Ref sig .tc := ⟨.hbm, 23, rfl⟩
abbrev main_call1_v1 : Ref sig .tc := ⟨.hbm, 24, rfl⟩
abbrev main_v9 : Ref sig .tc := ⟨.hbm, 25, rfl⟩
abbrev main_v10 : Ref sig .tc := ⟨.hbm, 26, rfl⟩
abbrev main_c : Ref sig .tc := ⟨.hbm, 27, rfl⟩
abbrev main_v11 : Ref sig .tc := ⟨.hbm, 28, rfl⟩
abbrev main_v12 : Ref sig .tc := ⟨.hbm, 29, rfl⟩
abbrev main_c_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_5 : Ref sig .tc := ⟨.hbm, 36, rfl⟩
abbrev main_v18 : Ref sig .tc := ⟨.hbm, 37, rfl⟩
abbrev main_v19 : Ref sig .tc := ⟨.hbm, 38, rfl⟩
abbrev main_c_6 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_7 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_8 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_9 : Ref sig .tc := ⟨.hbm, 60, rfl⟩
abbrev main_v38 : Ref sig .tc := ⟨.hbm, 61, rfl⟩
abbrev main_v39 : Ref sig .tc := ⟨.hbm, 62, rfl⟩
abbrev main_c_10 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_11 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S100000_S100000x1 : S100000.ShapeCasts S100000x1
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S64 : S_.BroadcastsInDim S64 (![] : Fin 0 → Fin S64.rank)
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v30) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v33) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v33) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 96
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .f32⟩
  | .hbm, ⟨29, _⟩ => ⟨S100000x128, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | .hbm, ⟨43, _⟩ => ⟨S100000x1, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S1x128, .f32⟩
  | .hbm, ⟨48, _⟩ => ⟨S100000x128, .f32⟩
  | .hbm, ⟨49, _⟩ => ⟨S100000x128, .f32⟩
  | .hbm, ⟨50, _⟩ => ⟨S_, .f32⟩
  | .hbm, ⟨51, _⟩ => ⟨S100000x128, .f32⟩
  | .hbm, ⟨52, _⟩ => ⟨S100000x128, .f32⟩
  | .hbm, ⟨53, _⟩ => ⟨S_, .f32⟩
  | .hbm, ⟨54, _⟩ => ⟨S1600000, .f32⟩
  | .hbm, ⟨55, _⟩ => ⟨S_, .f32⟩
  | .hbm, ⟨56, _⟩ => ⟨S100000, .f32⟩
  | .hbm, ⟨57, _⟩ => ⟨S1600000x1, .i32⟩
  | .hbm, ⟨58, _⟩ => ⟨S100000, .f32⟩
  | .hbm, ⟨59, _⟩ => ⟨S_, .f32⟩
  | .hbm, ⟨60, _⟩ => ⟨S100000, .f32⟩
  | .hbm, ⟨61, _⟩ => ⟨S1600000x1, .i32⟩
  | .hbm, ⟨62, _⟩ => ⟨S100000, .f32⟩
  | .hbm, ⟨63, _⟩ => ⟨S_, .f32⟩
  | .hbm, ⟨64, _⟩ => ⟨S_, .f32⟩
  | .hbm, ⟨65, _⟩ => ⟨S100000, .f32⟩
  | .hbm, ⟨66, _⟩ => ⟨S100000, .f32⟩
  | .hbm, ⟨67, _⟩ => ⟨S100000, .f32⟩
  | .hbm, ⟨68, _⟩ => ⟨S_, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000, .f32⟩
  | .hbm, ⟨73, _⟩ => ⟨S100000x1, .f32⟩
  | .hbm, ⟨74, _⟩ => ⟨S100000x128, .f32⟩
  | .hbm, ⟨75, _⟩ => ⟨S100000x128, .f32⟩
  | .hbm, ⟨76, _⟩ => ⟨S_, .i32⟩
  | .hbm, ⟨77, _⟩ => ⟨S1600000, .i32⟩
  | .hbm, ⟨78, _⟩ => ⟨S1600000, .i1⟩
  | .hbm, ⟨79, _⟩ => ⟨S_, .i32⟩
  | .hbm, ⟨80, _⟩ => ⟨S1600000, .i32⟩
  | .hbm, ⟨81, _⟩ => ⟨S1600000, .i32⟩
  | .hbm, ⟨82, _⟩ => ⟨S1600000, .i32⟩
  | .hbm, ⟨83, _⟩ => ⟨S1600000x1, .i32⟩
  | .hbm, ⟨84, _⟩ => ⟨S1600000x128, .f32⟩
  | .hbm, ⟨85, _⟩ => ⟨S_, .f32⟩
  | .hbm, ⟨86, _⟩ => ⟨S100000x128, .f32⟩
  | .hbm, ⟨87, _⟩ => ⟨S1600000x1, .i32⟩
  | .hbm, ⟨88, _⟩ => ⟨S100000x128, .f32⟩
  | .hbm, ⟨89, _⟩ => ⟨S100000x1, .f32⟩
  | .hbm, ⟨90, _⟩ => ⟨S100000x128, .f32⟩
  | .hbm, ⟨91, _⟩ => ⟨S100000x128, .f32⟩
  | .hbm, ⟨92, _⟩ => ⟨S100000x64, .f32⟩
  | .hbm, ⟨93, _⟩ => ⟨S1x64, .f32⟩
  | .hbm, ⟨94, _⟩ => ⟨S100000x64, .f32⟩
  | .hbm, ⟨95, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_call1_v0 : Ref sig .tc := ⟨.hbm, 23, rfl⟩
abbrev main_call1_v1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call2_cst : Ref sig .tc := ⟨.hbm, 50, rfl⟩
abbrev main_call2_v0 : Ref sig .tc := ⟨.hbm, 51, rfl⟩
abbrev main_v31 : Ref sig .tc := ⟨.hbm, 52, rfl⟩
abbrev main_cst_6 : Ref sig .tc := ⟨.hbm, 53, rfl⟩
abbrev main_v32 : Ref sig .tc := ⟨.hbm, 54, rfl⟩
abbrev main_cst_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_8 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_9 : Ref sig .tc := ⟨.hbm, 63, rfl⟩
abbrev main_call3_v0 : Ref sig .tc := ⟨.hbm, 64, rfl⟩
abbrev main_call3_v1 : Ref sig .tc := ⟨.hbm, 65, rfl⟩
abbrev main_v39 : Ref sig .tc := ⟨.hbm, 66, rfl⟩
abbrev main_v40 : Ref sig .tc := ⟨.hbm, 67, rfl⟩
abbrev main_cst_10 : Ref sig .tc := ⟨.hbm, 68, rfl⟩
abbrev main_call4_v0 : Ref sig .tc := ⟨.hbm, 69, rfl⟩
abbrev main_call4_v1 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_c_11 : Ref sig .tc := ⟨.hbm, 76, rfl⟩
abbrev main_v46 : Ref sig .tc := ⟨.hbm, 77, rfl⟩
abbrev main_v47 : Ref sig .tc := ⟨.hbm, 78, rfl⟩
abbrev main_c_12 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_13 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.LibEdgeRows.lean ====
/-
  Row gathers and row scatter-adds along the leading axis, read at coordinate indices.

  An edge list of extent `E` names, per edge `e`, one start index `idx[e, 0]` into a node axis of extent `N`.
  * A gather of whole rows of an `[N, C]` array (or of entries of an `[N]` vector) reads, at edge `e`, the row
    `rowOf N idx e`: the start index read as a signed integer and clamped into `[0, N − 1]`.
  * An accumulating scatter of the rows of an `[E, C]` array (or of the entries of an `[E]` vector) into an `[N, C]`
    array (an `[N]` vector) adds row `e` at the row `landsOf N idx e`: the start index read as a signed integer when it
    lies in `[0, N)`, and nowhere otherwise (the update is dropped). On the extended reals the result at `(n, k)` is the
    operand there plus the sum over the edges landing on `n` of their entries in column `k`.
  The row maps depend only on the index array and on `N`, not on the row width `C`: the same `rowOf` and `landsOf` serve
  arrays of every width over one node axis.
-/
import Idealize.ShloMosaic.Lib.ValueIdx
import Idealize.ShloMosaic.PureOps.Ideal

noncomputable section

namespace Idealize.ShloMosaic.EdgeRows

open Idealize.ShloMosaic Idealize.ShloMosaic.ValueIdx

variable {α : Type}

/-- The index-array entry `[e, 0]`. -/
abbrev edgeAt {E : Nat} (e : Fin E) : (⟨2, ![E, 1]⟩ : Shape).Idx := ix2 e (⟨0, Nat.one_pos⟩ : Fin 1)

/-- The row a gather reads for edge `e`: the start index, signed, clamped into `[0, N − 1]`. -/
def rowOf (N : Nat) (hN : 0 < N) {E w : Nat} (idx : IVec ⟨2, ![E, 1]⟩ w) (e : Fin E) : Fin N :=
  ⟨min (idx (edgeAt e)).toInt.toNat (N - 1), by omega⟩

/-- The row an accumulating scatter adds edge `e`'s update to: the start index, signed, when inside `[0, N)`. -/
def landsOf (N : Nat) {E w : Nat} (idx : IVec ⟨2, ![E, 1]⟩ w) (e : Fin E) : Option (Fin N) :=
  if h : 0 ≤ (idx (edgeAt e)).toInt ∧ (idx (edgeAt e)).toInt < (N : Int) then
    some ⟨(idx (edgeAt e)).toInt.toNat, by omega⟩
  else none

/-- The dimension numbers of a gather of whole rows: operand `[N, C]`, start indices `[E, 1]`, result `[E, C]`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The dimension numbers of a gather of entries of a vector: operand `[N]`, start indices `[E, 1]`, result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The dimension numbers of a scatter of whole rows: operand `[N, C]`, scatter indices `[E, 1]`, updates `[E, C]`. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The dimension numbers of a scatter of entries: operand `[N]`, scatter indices `[E, 1]`, updates `[E]`. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A row gather read at `(e, k)`: the operand at row `rowOf N idx e`, column `k`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k) = x (ix2 (rowOf N hN idx e) k) := by
  unfold Host.gather
  congr 1
  funext a
  refine Fin.ext ?_
  show (rowGatherDims N E C wf).start (ix2 e k) idx a + (rowGatherDims N E C wf).batchCoord (ix2 e k) a
    + (rowGatherDims N E C wf).offCoord (ix2 e k) a = _
  rw [GatherDims.batchCoord_eq_zero _ _ _ List.not_mem_nil]
  simp only [Nat.add_zero]
  match a with
  | ⟨0, _⟩ =>
    -- the collapsed node axis: the clamped start index, no offset
    rw [GatherDims.offCoord_eq_zero _ _ _ (fun h => ((GatherDims.mem_sKept _ _).mp h).1 (List.mem_singleton.mpr rfl))]
    simp only [Nat.add_zero]
    unfold GatherDims.start
    rw [dif_pos (show (⟨0, by omega⟩ : Fin 2) ∈ (rowGatherDims N E C wf).startIndexMap from List.mem_singleton.mpr rfl)]
    have hsi : (rowGatherDims N E C wf).siIdx (ix2 e k) ⟨List.idxOf (⟨0, by omega⟩ : Fin 2) (rowGatherDims N E C wf).startIndexMap,
        List.idxOf_lt_length_iff.2 (List.mem_singleton.mpr rfl)⟩ = edgeAt e := by
      funext b; refine Fin.ext ?_
      match b with
      | ⟨0, _⟩ => rfl
      | ⟨1, _⟩ => rfl
    rw [hsi]
    rfl
  | ⟨1, _⟩ =>
    -- the full-width column axis: start 0, the offset is the column coordinate
    unfold GatherDims.start
    have h1 : (⟨1, by omega⟩ : Fin 2) ∉ (rowGatherDims N E C wf).startIndexMap := fun h =>
      absurd (congrArg Fin.val (List.mem_singleton.mp h)) Nat.one_ne_zero
    have h1' : (⟨1, by omega⟩ : Fin 2) ∉ (rowGatherDims N E C wf).collapsedSliceDims := fun h =>
      absurd (congrArg Fin.val (List.mem_singleton.mp h)) Nat.one_ne_zero
    rw [dif_neg h1]
    unfold GatherDims.offCoord
    rw [dif_pos ((GatherDims.mem_sKept _ _).mpr ⟨h1', List.not_mem_nil⟩), Nat.zero_add]
    -- the one offset axis of the result is its axis 1, whatever position is looked up
    have hget : ∀ (i : Nat) (h : i < (rowGatherDims N E C wf).offsetDims.length),
        (rowGatherDims N E C wf).offsetDims[i] = ⟨1, by omega⟩ := by
      intro i h
      obtain rfl : i = 0 := Nat.lt_one_iff.mp h
      rfl
    rw [hget]

/-- A gather of vector entries read at `e`: the operand at `rowOf N idx e`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (rowOf N hN idx e)) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = edgeAt e := by
    funext b; refine Fin.ext ?_
    match b with
    | ⟨0, _⟩ => rfl
    | ⟨1, _⟩ => rfl
  rw [hsi]
  rfl

/-- An axis is among the kept ones exactly when it is not among the removed ones. -/
theorem mem_kept_iff {s : Shape} (axes : List (Fin s.rank)) (a : Fin s.rank) : a ∈ s.kept axes ↔ a ∉ axes := by
  simp [Shape.kept, List.mem_filter, List.mem_finRange]

/-- Where the update at `(e, k')` of a row scatter lands: on the row `landsOf N idx e`, in the same column `k'`. -/
theorem rowScatter_resultIdx? {N E C w : Nat}
    (wf : ScatterDims.WF ⟨2, ![N, C]⟩ ⟨2, ![E, 1]⟩ ⟨2, ![E, C]⟩ [1] [0] [0] 1)
    (idx : IVec ⟨2, ![E, 1]⟩ w) (e : Fin E) (k' : Fin C) :
    (rowScatterDims N E C wf).resultIdx? (ix2 e k') idx = (landsOf N idx e).map (fun n => ix2 n k') := by
  have m0 : (⟨0, by omega⟩ : Fin 2) ∈ (rowScatterDims N E C wf).scatterDimsToOperandDims := List.mem_singleton.mpr rfl
  have m0' : (⟨0, by omega⟩ : Fin 2) ∈ (rowScatterDims N E C wf).insertedWindowDims := List.mem_singleton.mpr rfl
  have h1 : (⟨1, by omega⟩ : Fin 2) ∉ (rowScatterDims N E C wf).scatterDimsToOperandDims := fun h =>
    absurd (congrArg Fin.val (List.mem_singleton.mp h)) Nat.one_ne_zero
  have h1' : (⟨1, by omega⟩ : Fin 2) ∉ (rowScatterDims N E C wf).insertedWindowDims := fun h =>
    absurd (congrArg Fin.val (List.mem_singleton.mp h)) Nat.one_ne_zero
  -- axis 0: the start is the signed start index, the window coordinate 0
  have hs0 : (rowScatterDims N E C wf).start (ix2 e k') idx (⟨0, by omega⟩ : Fin 2) = (idx (edgeAt e)).toInt := by
    unfold ScatterDims.start
    rw [dif_pos m0]
    have hsi : (rowScatterDims N E C wf).siIdx (ix2 e k')
        ⟨List.idxOf (⟨0, by omega⟩ : Fin 2) (rowScatterDims N E C wf).scatterDimsToOperandDims,
          List.idxOf_lt_length_iff.2 m0⟩ = edgeAt e := by
      funext b; refine Fin.ext ?_
      match b with
      | ⟨0, _⟩ => rfl
      | ⟨1, _⟩ => rfl
    rw [hsi]
  have hw0 : (rowScatterDims N E C wf).window (ix2 e k') (⟨0, by omega⟩ : Fin 2) = 0 := by
    unfold ScatterDims.window
    rw [dif_neg (fun h => (mem_kept_iff _ _).mp h m0')]
  -- axis 1: the start is 0, the window coordinate the column
  have hs1 : (rowScatterDims N E C wf).start (ix2 e k') idx (⟨1, by omega⟩ : Fin 2) = 0 := by
    unfold ScatterDims.start
    rw [dif_neg h1]
  have hw1 : (rowScatterDims N E C wf).window (ix2 e k') (⟨1, by omega⟩ : Fin 2) = k'.val := by
    unfold ScatterDims.window
    rw [dif_pos ((mem_kept_iff _ _).mpr h1')]
    have hget : ∀ (i : Nat) (h : i < (rowScatterDims N E C wf).updateWindowDims.length),
        (rowScatterDims N E C wf).updateWindowDims[i] = (⟨1, by omega⟩ : Fin 2) := by
      intro i h
      obtain rfl : i = 0 := Nat.lt_one_iff.mp h
      rfl
    rw [hget]
  unfold ScatterDims.resultIdx? landsOf
  by_cases hz : 0 ≤ (idx (edgeAt e)).toInt ∧ (idx (edgeAt e)).toInt < (N : Int)
  · have hall : ∀ a, 0 ≤ (rowScatterDims N E C wf).start (ix2 e k') idx a + (rowScatterDims N E C wf).window (ix2 e k') a ∧
        (rowScatterDims N E C wf).start (ix2 e k') idx a + (rowScatterDims N E C wf).window (ix2 e k') a
          < (⟨2, ![N, C]⟩ : Shape).size a := by
      intro a
      match a with
      | ⟨0, _⟩ =>
        rw [hs0, hw0]
        show 0 ≤ (idx (edgeAt e)).toInt + ((0 : Nat) : Int) ∧ (idx (edgeAt e)).toInt + ((0 : Nat) : Int) < (N : Int)
        omega
      | ⟨1, _⟩ =>
        rw [hs1, hw1]
        have := k'.isLt
        show 0 ≤ (0 : Int) + (k'.val : Int) ∧ (0 : Int) + (k'.val : Int) < (C : Int)
        omega
    rw [dif_pos hall, dif_pos hz]
    show some _ = some _
    congr 1
    funext a
    refine Fin.ext ?_
    match a with
    | ⟨0, p0⟩ =>
      show ((rowScatterDims N E C wf).start (ix2 e k') idx ⟨0, p0⟩
        + (rowScatterDims N E C wf).window (ix2 e k') ⟨0, p0⟩).toNat = (idx (edgeAt e)).toInt.toNat
      rw [hs0, hw0]
      simp
    | ⟨1, p1⟩ =>
      show ((rowScatterDims N E C wf).start (ix2 e k') idx ⟨1, p1⟩
        + (rowScatterDims N E C wf).window (ix2 e k') ⟨1, p1⟩).toNat = k'.val
      rw [hs1, hw1]
      simp
  · rw [dif_neg hz, dif_neg]
    · rfl
    · intro hall
      have := hall (⟨0, by omega⟩ : Fin 2)
      rw [hs0, hw0] at this
      exact hz (by
        have h2 : 0 ≤ (idx (edgeAt e)).toInt + ((0 : Nat) : Int) ∧ (idx (edgeAt e)).toInt + ((0 : Nat) : Int) < (N : Int) := this
        omega)

/-- An accumulating row scatter on the extended reals, read at `(n, k)`: the operand there plus the sum, over the
    edges landing on row `n`, of their updates' column `k`. -/
theorem scatterAdd_rows_apply {N E C w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (n : Fin N) (k : Fin C) :
    Host.scatterAdd (F := Ideal) (rowScatterDims N E C wf) x idx upd (ix2 n k)
      = (x (ix2 n k) : EReal) + ∑ e ∈ Finset.univ.filter (fun e : Fin E => landsOf N idx e = some n), (upd (ix2 e k) : EReal) := by
  -- the update at `(e, k')` lands on `(n, k)` exactly when edge `e` lands on row `n` and `k' = k`
  have hkey : ∀ (e : Fin E) (k' : Fin C),
      (rowScatterDims N E C wf).resultIdx? (ix2 e k') idx = some (ix2 n k) ↔ landsOf N idx e = some n ∧ k' = k := by
    intro e k'
    rw [rowScatter_resultIdx?, Option.map_eq_some_iff]
    constructor
    · rintro ⟨n', hl, hix⟩
      have e0 : n' = n := congrFun hix (⟨0, Nat.zero_lt_two⟩ : Fin 2)
      have e1 : k' = k := congrFun hix (⟨1, Nat.one_lt_two⟩ : Fin 2)
      exact ⟨e0 ▸ hl, e1⟩
    · rintro ⟨hl, rfl⟩
      exact ⟨n, hl, rfl⟩
  unfold Host.scatterAdd
  rw [Ideal.hostScatterAdd_def]
  unfold Ideal.hostScatterAdd
  congr 1
  -- re-index the sum over update indices by the edge coordinate
  refine Finset.sum_nbij' (fun j => (j (⟨0, Nat.zero_lt_two⟩ : Fin 2) : Fin E)) (fun e => ix2 e k) ?_ ?_ ?_ ?_ ?_
  · intro j hj
    obtain ⟨a, b, rfl⟩ : ∃ a b, j = ix2 a b := ⟨_, _, eq_ix2 j⟩
    rw [Finset.mem_filter] at hj ⊢
    exact ⟨Finset.mem_univ _, ((hkey a b).mp hj.2).1⟩
  · intro e he
    rw [Finset.mem_filter] at he ⊢
    exact ⟨Finset.mem_univ _, (hkey e k).mpr ⟨he.2, rfl⟩⟩
  · intro j hj
    obtain ⟨a, b, rfl⟩ : ∃ a b, j = ix2 a b := ⟨_, _, eq_ix2 j⟩
    rw [Finset.mem_filter] at hj
    obtain ⟨_, rfl⟩ := (hkey a b).mp hj.2
    rfl
  · intro e _
    rfl
  · intro j hj
    obtain ⟨a, b, rfl⟩ : ∃ a b, j = ix2 a b := ⟨_, _, eq_ix2 j⟩
    rw [Finset.mem_filter] at hj
    obtain ⟨_, rfl⟩ := (hkey a b).mp hj.2
    rfl

/-- Where the update at `e` of a scatter of vector entries lands: at the entry `landsOf N idx e`. -/
theorem vecScatter_resultIdx? {N E w : Nat}
    (wf : ScatterDims.WF ⟨1, ![N]⟩ ⟨2, ![E, 1]⟩ ⟨1, ![E]⟩ [] [0] [0] 1)
    (idx : IVec ⟨2, ![E, 1]⟩ w) (e : Fin E) :
    (vecScatterDims N E wf).resultIdx? (ix1 e) idx = (landsOf N idx e).map ix1 := by
  have m0 : (⟨0, Nat.one_pos⟩ : Fin 1) ∈ (vecScatterDims N E wf).scatterDimsToOperandDims := List.mem_singleton.mpr rfl
  have m0' : (⟨0, Nat.one_pos⟩ : Fin 1) ∈ (vecScatterDims N E wf).insertedWindowDims := List.mem_singleton.mpr rfl
  -- the one axis: the start is the signed start index, the window coordinate 0
  have hs0 : (vecScatterDims N E wf).start (ix1 e) idx (⟨0, Nat.one_pos⟩ : Fin 1) = (idx (edgeAt e)).toInt := by
    unfold ScatterDims.start
    rw [dif_pos m0]
    have hsi : (vecScatterDims N E wf).siIdx (ix1 e)
        ⟨List.idxOf (⟨0, Nat.one_pos⟩ : Fin 1) (vecScatterDims N E wf).scatterDimsToOperandDims,
          List.idxOf_lt_length_iff.2 m0⟩ = edgeAt e := by
      funext b; refine Fin.ext ?_
      match b with
      | ⟨0, _⟩ => rfl
      | ⟨1, _⟩ => rfl
    rw [hsi]
  have hw0 : (vecScatterDims N E wf).window (ix1 e) (⟨0, Nat.one_pos⟩ : Fin 1) = 0 := by
    unfold ScatterDims.window
    rw [dif_neg (fun h => (mem_kept_iff _ _).mp h m0')]
  unfold ScatterDims.resultIdx? landsOf
  by_cases hz : 0 ≤ (idx (edgeAt e)).toInt ∧ (idx (edgeAt e)).toInt < (N : Int)
  · have hall : ∀ a, 0 ≤ (vecScatterDims N E wf).start (ix1 e) idx a + (vecScatterDims N E wf).window (ix1 e) a ∧
        (vecScatterDims N E wf).start (ix1 e) idx a + (vecScatterDims N E wf).window (ix1 e) a
          < (⟨1, ![N]⟩ : Shape).size a := by
      intro a
      match a with
      | ⟨0, _⟩ =>
        rw [hs0, hw0]
        show 0 ≤ (idx (edgeAt e)).toInt + ((0 : Nat) : Int) ∧ (idx (edgeAt e)).toInt + ((0 : Nat) : Int) < (N : Int)
        omega
    rw [dif_pos hall, dif_pos hz]
    show some _ = some _
    congr 1
    funext a
    refine Fin.ext ?_
    match a with
    | ⟨0, p0⟩ =>
      show ((vecScatterDims N E wf).start (ix1 e) idx ⟨0, p0⟩
        + (vecScatterDims N E wf).window (ix1 e) ⟨0, p0⟩).toNat = (idx (edgeAt e)).toInt.toNat
      rw [hs0, hw0]
      simp
  · rw [dif_neg hz, dif_neg]
    · rfl
    · intro hall
      have := hall (⟨0, Nat.one_pos⟩ : Fin 1)
      rw [hs0, hw0] at this
      exact hz (by
        have h2 : 0 ≤ (idx (edgeAt e)).toInt + ((0 : Nat) : Int) ∧ (idx (edgeAt e)).toInt + ((0 : Nat) : Int) < (N : Int) := this
        omega)

/-- An accumulating scatter of vector entries on the extended reals, read at `n`: the operand there plus the sum of
    the updates of the edges landing on `n`. -/
theorem scatterAdd_vec_apply {N E w : Nat} {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (F := Ideal) (vecScatterDims N E wf) x idx upd (ix1 n)
      = (x (ix1 n) : EReal) + ∑ e ∈ Finset.univ.filter (fun e : Fin E => landsOf N idx e = some n), (upd (ix1 e) : EReal) := by
  -- the update at `e` lands on `n` exactly when edge `e` lands on `n`
  have hkey : ∀ (e : Fin E),
      (vecScatterDims N E wf).resultIdx? (ix1 e) idx = some (ix1 n) ↔ landsOf N idx e = some n := by
    intro e
    rw [vecScatter_resultIdx?, Option.map_eq_some_iff]
    constructor
    · rintro ⟨n', hl, hix⟩
      have e0 : n' = n := congrFun hix (⟨0, Nat.one_pos⟩ : Fin 1)
      exact e0 ▸ hl
    · intro hl
      exact ⟨n, hl, rfl⟩
  unfold Host.scatterAdd
  rw [Ideal.hostScatterAdd_def]
  unfold Ideal.hostScatterAdd
  congr 1
  -- re-index the sum over update indices by the edge coordinate
  refine Finset.sum_nbij' (fun j => (j (⟨0, Nat.one_pos⟩ : Fin 1) : Fin E)) (fun e => ix1 e) ?_ ?_ ?_ ?_ ?_
  · intro j hj
    obtain ⟨a, rfl⟩ : ∃ a, j = ix1 a := ⟨_, eq_ix1 j⟩
    rw [Finset.mem_filter] at hj ⊢
    exact ⟨Finset.mem_univ _, (hkey a).mp hj.2⟩
  · intro e he
    rw [Finset.mem_filter] at he ⊢
    exact ⟨Finset.mem_univ _, (hkey e).mpr he.2⟩
  · intro j _
    obtain ⟨a, rfl⟩ : ∃ a, j = ix1 a := ⟨_, eq_ix1 j⟩
    rfl
  · intro e _
    rfl
  · intro j _
    obtain ⟨a, rfl⟩ : ∃ a, j = ix1 a := ⟨_, eq_ix1 j⟩
    rfl

end Idealize.ShloMosaic.EdgeRows

end
-- ==== Proof.LibGraphConvAlgebra.lean ====
/-
  Two arrangements of a normalised graph convolution on the extended reals, over abstract finite index types.

  Nodes `N`, edges `E`, input features `K`, output features `J`. Edge `e` reads node `g e` and adds into node `n` when
  `L e = some n` (an edge with `L e = none` adds nowhere). `agg L msg n` is zero plus the sum of the messages of the edges
  landing on `n`. With per-node scales `ns` (on the source side) and `nd` (on the destination side):
  * `refOut`: aggregate the scaled rows, scale by `nd`, THEN apply the weights:   Σ_k ((agg (H(g e,k)·ns(g e)) i)·nd i)·W k j + b j
  * `kerOut`: apply the weights to each scaled row FIRST, aggregate, then scale:    (agg (Σ_k (H(g e,k)·ns(g e))·W k j + 0) i)·nd i + b j
  They are equal when every entry is a real number (`kerOut_eq_refOut`): the sum over edges and the sum over features
  commute and the real factors distribute. On the extended reals this NEEDS real entries: a sum holding both
  infinities does not distribute over a negative factor.
  Also here: real-valuedness (`IsReal`) and its closure under the operations the layers use, the hidden layer
  `hidden` (aggregate, scale, weights, bias, maximum with zero) real-valued on real data, and the norm of a count —
  the ideal reciprocal square root of the count of landing edges floored at one — a real.
-/
import Idealize.ShloMosaic.PureOps.Ideal

noncomputable section

namespace Idealize.ShloMosaic.GraphConvAlgebra

open Idealize.ShloMosaic

/-- An extended real that is a real number. -/
def IsReal (x : EReal) : Prop := ∃ r : ℝ, x = (r : EReal)

theorem IsReal.coe (r : ℝ) : IsReal (r : EReal) := ⟨r, rfl⟩
theorem IsReal.zero : IsReal (0 : EReal) := ⟨0, rfl⟩
theorem IsReal.add {x y : EReal} (hx : IsReal x) (hy : IsReal y) : IsReal (x + y) := by
  obtain ⟨a, rfl⟩ := hx
  obtain ⟨b, rfl⟩ := hy
  exact ⟨a + b, (EReal.coe_add a b).symm⟩
theorem IsReal.mul {x y : EReal} (hx : IsReal x) (hy : IsReal y) : IsReal (x * y) := by
  obtain ⟨a, rfl⟩ := hx
  obtain ⟨b, rfl⟩ := hy
  exact ⟨a * b, (EReal.coe_mul a b).symm⟩
/-- The coercion of the larger of two reals is the larger of the coercions. -/
theorem coe_max (a b : ℝ) : ((Max.max a b : ℝ) : EReal) = Max.max (a : EReal) (b : EReal) := by
  rcases le_total a b with h | h
  · rw [max_eq_right h, max_eq_right (EReal.coe_le_coe_iff.mpr h)]
  · rw [max_eq_left h, max_eq_left (EReal.coe_le_coe_iff.mpr h)]

theorem IsReal.max {x y : EReal} (hx : IsReal x) (hy : IsReal y) : IsReal (max x y) := by
  obtain ⟨a, rfl⟩ := hx
  obtain ⟨b, rfl⟩ := hy
  exact ⟨Max.max a b, (coe_max a b).symm⟩
theorem IsReal.sum {ι : Type} (s : Finset ι) (f : ι → EReal) (hf : ∀ i ∈ s, IsReal (f i)) : IsReal (∑ i ∈ s, f i) := by
  classical
  revert hf
  refine Finset.induction_on s ?_ ?_
  · intro _
    rw [Finset.sum_empty]
    exact IsReal.zero
  · intro a t ha ih hf
    rw [Finset.sum_insert ha]
    exact IsReal.add (hf a (Finset.mem_insert_self a t)) (ih (fun i hi => hf i (Finset.mem_insert_of_mem hi)))

/-- The coercion of a finite sum of reals is the sum of the coercions. -/
theorem coe_sum {ι : Type} (s : Finset ι) (f : ι → ℝ) : ((∑ i ∈ s, f i : ℝ) : EReal) = ∑ i ∈ s, (f i : EReal) := by
  classical
  refine Finset.induction_on s ?_ ?_
  · rw [Finset.sum_empty, Finset.sum_empty, EReal.coe_zero]
  · intro a t ha ih
    rw [Finset.sum_insert ha, Finset.sum_insert ha, EReal.coe_add, ih]

/-- The f32 word of 1.0 is the real 1. -/
theorem ofBits_one_f32 : Ideal.ofBits .f32 0x3F800000#32 = ((1 : ℝ) : EReal) := by
  simp [Ideal.ofBits, Ideal.ieee, -EReal.coe_mul]; norm_num

variable {N E K J : Type} [Fintype E] [Fintype K] [DecidableEq N]

/-- Zero plus the sum of the messages of the edges landing on node `n`. -/
def agg (L : E → Option N) (msg : E → EReal) (n : N) : EReal :=
  0 + ∑ e ∈ Finset.univ.filter (fun e => L e = some n), msg e

theorem agg_isReal (L : E → Option N) (msg : E → EReal) (h : ∀ e, IsReal (msg e)) (n : N) : IsReal (agg L msg n) := by
  unfold agg
  exact IsReal.add IsReal.zero (IsReal.sum _ _ (fun e _ => h e))

/-- The norm of a node: the ideal reciprocal square root of its count of landing edges (each counted as `one`),
    floored at `one`. For `one` a positive real it is a real. -/
theorem norm_isReal (L : E → Option N) (one : EReal) (r : ℝ) (hone : one = (r : EReal)) (hr : 0 < r) (n : N) :
    IsReal (Ideal.rsqrt (max one (agg L (fun _ => one) n))) := by
  subst hone
  -- the count is a real a; the floored count, the larger of r and a, is a real at least r, so positive
  obtain ⟨a, ha⟩ := agg_isReal L (fun _ => (r : EReal)) (fun _ => IsReal.coe r) n
  have hpos : 0 < Max.max r a := lt_of_lt_of_le hr (le_max_left r a)
  rw [ha, ← coe_max, Ideal.rsqrt_coe, if_neg (not_lt.mpr hpos.le), if_neg hpos.ne']
  exact IsReal.coe _

/-- The hidden layer at node `n`, feature `k`: aggregate the source-scaled input rows, scale by `nd`, apply `W1`, add
    the bias, take the maximum with zero. -/
def hidden (g : E → N) (L : E → Option N) (ns nd : N → EReal) (X : N → K → EReal) (W1 : K → K → EReal) (b1 : K → EReal)
    (n : N) (k : K) : EReal :=
  max ((∑ k', (agg L (fun e => X (g e) k' * ns (g e)) n * nd n) * W1 k' k) + b1 k) 0

theorem hidden_isReal (g : E → N) (L : E → Option N) (ns nd : N → EReal) (X : N → K → EReal) (W1 : K → K → EReal)
    (b1 : K → EReal) (hns : ∀ n, IsReal (ns n)) (hnd : ∀ n, IsReal (nd n)) (hX : ∀ n k, IsReal (X n k))
    (hW1 : ∀ k k', IsReal (W1 k k')) (hb1 : ∀ k, IsReal (b1 k)) (n : N) (k : K) :
    IsReal (hidden g L ns nd X W1 b1 n k) := by
  unfold hidden
  refine IsReal.max (IsReal.add (IsReal.sum _ _ (fun k' _ => ?_)) (hb1 k)) IsReal.zero
  exact IsReal.mul (IsReal.mul (agg_isReal L _ (fun e => IsReal.mul (hX _ _) (hns _)) n) (hnd n)) (hW1 k' k)

/-- Aggregate, scale, then apply the weights. -/
def refOut (g : E → N) (L : E → Option N) (ns nd : N → EReal) (H : N → K → EReal) (W2 : K → J → EReal) (b2 : J → EReal)
    (i : N) (j : J) : EReal :=
  (∑ k, (agg L (fun e => H (g e) k * ns (g e)) i * nd i) * W2 k j) + b2 j

/-- Apply the weights to each scaled row (plus a zero bias), aggregate, then scale. -/
def kerOut (g : E → N) (L : E → Option N) (ns nd : N → EReal) (H : N → K → EReal) (W2 : K → J → EReal) (b2 : J → EReal)
    (i : N) (j : J) : EReal :=
  (agg L (fun e => (∑ k, (H (g e) k * ns (g e)) * W2 k j) + 0) i * nd i) + b2 j

/-- On real data the two arrangements agree (`b2` may be any extended real). -/
theorem kerOut_eq_refOut (g : E → N) (L : E → Option N) (ns nd : N → EReal) (H : N → K → EReal) (W2 : K → J → EReal)
    (b2 : J → EReal) (hns : ∀ n, IsReal (ns n)) (hnd : ∀ n, IsReal (nd n)) (hH : ∀ n k, IsReal (H n k))
    (hW2 : ∀ k j, IsReal (W2 k j)) (i : N) (j : J) :
    kerOut g L ns nd H W2 b2 i j = refOut g L ns nd H W2 b2 i j := by
  -- real witnesses for every entry
  choose ns' hns' using hns
  choose nd' hnd' using hnd
  choose H' hH' using hH
  choose W' hW' using hW2
  unfold kerOut refOut
  -- the bias is added last on both sides and never enters the algebra
  refine congrArg (· + b2 j) ?_
  unfold agg
  -- the identity on the reals: the two finite sums commute and the factors distribute
  have key : (∑ e ∈ Finset.univ.filter (fun e => L e = some i), ∑ k, (H' (g e) k * ns' (g e)) * W' k j) * nd' i
      = ∑ k, ((∑ e ∈ Finset.univ.filter (fun e => L e = some i), H' (g e) k * ns' (g e)) * nd' i) * W' k j := by
    simp only [Finset.sum_mul]
    rw [Finset.sum_comm]
    exact Finset.sum_congr rfl (fun k _ => Finset.sum_congr rfl (fun e _ => by ring))
  simp only [hns', hnd', hH', hW', zero_add, add_zero, ← EReal.coe_mul, ← coe_sum]
  exact congrArg _ key

end Idealize.ShloMosaic.GraphConvAlgebra

end
-- ==== Proof.GraphConvSpec.lean ====
/-
  The two-layer normalised graph convolution as ONE function of the argument arrays, index by index.

  100000 nodes, 1600000 edges; edge `e` reads the node `src e` (a negative index wraps by the node count, then the
  read clamps into range) and adds into the node `dst e` (when in range; otherwise nowhere). A node's out-degree and
  in-degree count the edges landing on it by `src` and by `dst`; `ns`, `nd` are the reciprocal square roots of the
  degrees floored at one. Layer 1: the input rows scaled by `ns`, aggregated along the edges, scaled by `nd`, through
  `W1` and `b1`, maximum with zero. Layer 2 in its two arrangements: the reference aggregates, scales and THEN applies
  `W2` (`resultRef`); the kernel applies `W2` to every scaled row FIRST, then aggregates and scales (`resultKer`).
  On real-valued data they are one function (`resultKer_eq_resultRef`).
-/
import proofs.«178335_j10977936409091_2_alg».proof.Proof.LibEdgeRows
import proofs.«178335_j10977936409091_2_alg».proof.Proof.LibGraphConvAlgebra

noncomputable section

namespace Cert.GraphConv

open Idealize.ShloMosaic Idealize.ShloMosaic.ValueIdx Idealize.ShloMosaic.EdgeRows Idealize.ShloMosaic.GraphConvAlgebra

/-- A gather index with the negative ones wrapped by the node count. -/
def wrapAt (s : BitVec 32) : BitVec 32 := Scalar.select (IntOp.cmpi .slt s 0#32) (IntOp.addi s 100000#32) s

/-- An edge list as the one-column index array a scatter reads. -/
def rawCol (v : IVec ⟨1, ![1600000]⟩ 32) : IVec ⟨2, ![1600000, 1]⟩ 32 := fun i => v (ix1 (i 0))

/-- An edge list, wrapped, as the one-column index array a gather reads. -/
def wrapCol (v : IVec ⟨1, ![1600000]⟩ 32) : IVec ⟨2, ![1600000, 1]⟩ 32 := fun i => wrapAt (v (ix1 (i 0)))

/-- The node edge `e` reads. -/
def readsOf (src : IVec ⟨1, ![1600000]⟩ 32) : Fin 1600000 → Fin 100000 := rowOf 100000 (by decide) (wrapCol src)

/-- The node edge `e` adds into, by an edge list. -/
def landsBy (v : IVec ⟨1, ![1600000]⟩ 32) : Fin 1600000 → Option (Fin 100000) := landsOf 100000 (rawCol v)

/-- The f32 word of 1.0 as an extended real. -/
def one : EReal := Ideal.ofBits .f32 0x3F800000#32

/-- The norm of node `n` by an edge list: the reciprocal square root of its count of landing edges floored at one. -/
def normBy (v : IVec ⟨1, ![1600000]⟩ 32) (n : Fin 100000) : EReal :=
  Ideal.rsqrt (max one (agg (landsBy v) (fun _ => one) n))

theorem normBy_isReal (v : IVec ⟨1, ![1600000]⟩ 32) (n : Fin 100000) : IsReal (normBy v n) :=
  norm_isReal (landsBy v) one 1 ofBits_one_f32 one_pos n

/-- Layer 1 at node `n`, feature `k`. -/
def hiddenAt (X : FVec Ideal ⟨2, ![100000, 128]⟩ .f32) (src dst : IVec ⟨1, ![1600000]⟩ 32)
    (W1 : FVec Ideal ⟨2, ![128, 128]⟩ .f32) (b1 : FVec Ideal ⟨1, ![128]⟩ .f32) (n : Fin 100000) (k : Fin 128) : EReal :=
  hidden (readsOf src) (landsBy dst) (normBy src) (normBy dst) (fun n k => X (ix2 n k)) (fun k k' => W1 (ix2 k k'))
    (fun k => b1 (ix1 k)) n k

/-- The reference's arrangement of the result. -/
def resultRef (X : FVec Ideal ⟨2, ![100000, 128]⟩ .f32) (src dst : IVec ⟨1, ![1600000]⟩ 32)
    (W1 : FVec Ideal ⟨2, ![128, 128]⟩ .f32) (b1 : FVec Ideal ⟨1, ![128]⟩ .f32) (W2 : FVec Ideal ⟨2, ![128, 64]⟩ .f32)
    (b2 : FVec Ideal ⟨1, ![64]⟩ .f32) : FVec Ideal ⟨2, ![100000, 64]⟩ .f32 := fun i =>
  refOut (readsOf src) (landsBy dst) (normBy src) (normBy dst) (hiddenAt X src dst W1 b1) (fun k j => W2 (ix2 k j))
    (fun j => b2 (ix1 j)) (i 0) (i 1)

/-- The kernel's arrangement of the result. -/
def resultKer (X : FVec Ideal ⟨2, ![100000, 128]⟩ .f32) (src dst : IVec ⟨1, ![1600000]⟩ 32)
    (W1 : FVec Ideal ⟨2, ![128, 128]⟩ .f32) (b1 : FVec Ideal ⟨1, ![128]⟩ .f32) (W2 : FVec Ideal ⟨2, ![128, 64]⟩ .f32)
    (b2 : FVec Ideal ⟨1, ![64]⟩ .f32) : FVec Ideal ⟨2, ![100000, 64]⟩ .f32 := fun i =>
  kerOut (readsOf src) (landsBy dst) (normBy src) (normBy dst) (hiddenAt X src dst W1 b1) (fun k j => W2 (ix2 k j))
    (fun j => b2 (ix1 j)) (i 0) (i 1)

/-- On real-valued inputs, weights and first bias the two arrangements are one function. -/
theorem resultKer_eq_resultRef (X : FVec Ideal ⟨2, ![100000, 128]⟩ .f32) (src dst : IVec ⟨1, ![1600000]⟩ 32)
    (W1 : FVec Ideal ⟨2, ![128, 128]⟩ .f32) (b1 : FVec Ideal ⟨1, ![128]⟩ .f32) (W2 : FVec Ideal ⟨2, ![128, 64]⟩ .f32)
    (b2 : FVec Ideal ⟨1, ![64]⟩ .f32)
    (hX : ∀ i, ∃ r : ℝ, (X i : EReal) = (r : EReal)) (hW1 : ∀ i, ∃ r : ℝ, (W1 i : EReal) = (r : EReal))
    (hb1 : ∀ i, ∃ r : ℝ, (b1 i : EReal) = (r : EReal)) (hW2 : ∀ i, ∃ r : ℝ, (W2 i : EReal) = (r : EReal)) :
    resultKer X src dst W1 b1 W2 b2 = resultRef X src dst W1 b1 W2 b2 := by
  funext i
  exact kerOut_eq_refOut _ _ _ _ _ _ _ (normBy_isReal src) (normBy_isReal dst)
    (fun n k => hidden_isReal _ _ _ _ _ _ _ (normBy_isReal src) (normBy_isReal dst) (fun n k => hX _) (fun k k' => hW1 _)
      (fun k => hb1 _) n k)
    (fun k j => hW2 _) (i 0) (i 1)

end Cert.GraphConv

end
-- ==== Proof.FiniteInputs.lean ====
/-
  The precondition read entry by entry: when every float argument passes `|x| < +inf` at every entry (the
  conjunction of the five all-reductions being true), every entry of each float argument is a real number.
  At the ideal instance an entry is an extended real; `|x| = max x (-x)` is below `+inf` exactly when `x` is neither
  infinity.
-/
import proofs.«178335_j10977936409091_2_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.FiniteInputs

open Idealize.ShloMosaic Cert.Pre_finite_inputs

/-- The scalar shape has one index: an index is a function out of the empty set of axes. -/
instance subsingleton_scalar_idx : Subsingleton S_.Idx := ⟨fun _ _ => funext fun d => d.elim0⟩

/-- The word `0x7F800000` (sign 0, exponent all ones, significand 0) denotes `+inf`. -/
theorem ofBits_pos_inf : Ideal.ofBits .f32 0x7F800000#32 = (⊤ : EReal) := by
  simp [Ideal.ofBits, Ideal.ieee]

/-- An extended real whose absolute value `max x (-x)` is strictly below `+inf` is a real number:
    at `x = ⊤` the maximum is `⊤`, at `x = ⊥` its negation `⊤` is, and neither is below `⊤`. -/
theorem real_of_abs_lt_top (x : EReal) (h : max x (-x) < ⊤) : ∃ r : ℝ, x = (r : EReal) := by
  induction x using EReal.rec with
  | bot => exact absurd h (by simp)
  | top => exact absurd h (by simp)
  | coe r => exact ⟨r, rfl⟩

/-- One entry of a block "abs, compare `olt` against the broadcast word of `+inf`": when the comparison's
    bit at `i` is 1, the entry of the argument at `i` is a real number. -/
theorem real_of_entry {s : Shape} (a : FVec Ideal s .f32) (bc : S_.BroadcastsInDim s (![] : Fin 0 → Fin s.rank))
    (i : s.Idx)
    (h : cmpf .olt (Host.absf a) (broadcastInDim s ![] bc (constant (F := Ideal) S_ .f32 0x7F800000#32)) i = 1#1) :
    ∃ r : ℝ, (a i : EReal) = (r : EReal) := by
  -- the comparison at `i` is the comparison of `max (a i) (-(a i))` with the extended real the word denotes
  have h' : Ideal.cmp .olt (max (a i) (-(a i))) (Ideal.ofBits .f32 0x7F800000#32) = 1#1 := h
  rw [ofBits_pos_inf] at h'
  refine real_of_abs_lt_top (a i) ?_
  by_contra hn
  simp [Ideal.cmp, hn] at h'

/-- Under the precondition every entry of the five float arguments is a real number. -/
theorem real_of_pre [Cert.Pre_finite_inputs.Facts]
    (a0 : FVec Ideal S100000x128 .f32) (a1 a2 : IVec S1600000 32) (a3 : FVec Ideal S128x128 .f32)
    (a4 : FVec Ideal S128 .f32) (a5 : FVec Ideal S128x64 .f32) (a6 : FVec Ideal S64 .f32)
    (h : Cert.Pre_finite_inputs.fn (F := Ideal) a0 a1 a2 a3 a4 a5 a6 = fun _ => 1#1) :
    (∀ i, ∃ r : ℝ, (a0 i : EReal) = (r : EReal)) ∧ (∀ i, ∃ r : ℝ, (a3 i : EReal) = (r : EReal))
      ∧ (∀ i, ∃ r : ℝ, (a4 i : EReal) = (r : EReal)) ∧ (∀ i, ∃ r : ℝ, (a5 i : EReal) = (r : EReal))
      ∧ (∀ i, ∃ r : ℝ, (a6 i : EReal) = (r : EReal)) := by
  -- the function's one output bit, with the chain of `let`s unfolded: a conjunction of five all-reductions
  have h0 := congrFun h ValueIdx.ix0
  dsimp only [fn, fn_part1] at h0
  -- `and` of bits is 1 exactly when both are: split ((((r0 ∧ r3) ∧ r4) ∧ r5) ∧ r6)
  obtain ⟨h0123, h6⟩ := IntOp.andi_eq_one.1 h0
  obtain ⟨h012, h5⟩ := IntOp.andi_eq_one.1 h0123
  obtain ⟨h01, h4⟩ := IntOp.andi_eq_one.1 h012
  obtain ⟨h00, h3⟩ := IntOp.andi_eq_one.1 h01
  -- an all-reduction by `and` that came out 1 met a 1 at every entry; read each entry
  exact ⟨fun i => real_of_entry a0 _ i (Host.reduce_andi_all _ _ _ _ _ h00 i),
    fun i => real_of_entry a3 _ i (Host.reduce_andi_all _ _ _ _ _ h3 i),
    fun i => real_of_entry a4 _ i (Host.reduce_andi_all _ _ _ _ _ h4 i),
    fun i => real_of_entry a5 _ i (Host.reduce_andi_all _ _ _ _ _ h5 i),
    fun i => real_of_entry a6 _ i (Host.reduce_andi_all _ _ _ _ _ h6 i)⟩

end Cert.FiniteInputs

end
-- ==== Proof.RefValue.lean ====
/-
  The reference's result, read index by index: it is the graph convolution in the arrangement
  "aggregate, scale, then apply the weights" (`Cert.GraphConv.resultRef`).

  Each of its two layers computes the degrees by an accumulating scatter of ones, floors them at one, takes
  reciprocal square roots, scales the rows by the source norm, gathers them along the edges (negative indices
  wrapped, the read clamped), scatters them into the destination rows, scales by the destination norm, and applies
  the weights and the bias; the first layer ends in a maximum with zero.
-/
import proofs.«178335_j10977936409091_2_alg».proof.Defs
import proofs.«178335_j10977936409091_2_alg».proof.Proof.Gen.ReferenceIdeal.Read
import proofs.«178335_j10977936409091_2_alg».proof.Proof.GraphConvSpec

noncomputable section

namespace Cert.ReferenceIdeal.RefValue

open Cert.ReferenceIdeal Cert.ReferenceIdeal.Gen Cert.ReferenceIdeal.Read
open Idealize.ShloMosaic Idealize.ShloMosaic.ValueIdx Idealize.ShloMosaic.EdgeRows Idealize.ShloMosaic.GraphConvAlgebra

section Stages
open Cert.GraphConv

/-! ## The index arrays -/

/-- The one-column index of edge `i 0` in an edge list. -/
theorem idx_col (i : S1600000x1.Idx) : (fun a => match a with | ⟨0, _⟩ => ⟨(i 0).val, (i 0).isLt⟩ : S1600000.Idx) = ix1 (i 0) := by
  funext a; match a with | ⟨0, _⟩ => rfl

theorem v18_at (x1 : IVec S1600000 32) (j : S1600000.Idx) : val_main_v18 (F := Ideal) x1 j = wrapAt (x1 j) := rfl
theorem v50_at (x1 : IVec S1600000 32) (j : S1600000.Idx) : val_main_v50 (F := Ideal) x1 j = wrapAt (x1 j) := rfl

theorem v19_eq (x1 : IVec S1600000 32) : val_main_v19 (F := Ideal) x1 = wrapCol x1 := by
  funext i
  rw [val_main_v19_apply, v18_at]
  exact congrArg (fun j => wrapAt (x1 j)) (idx_col i)

theorem v51_eq (x1 : IVec S1600000 32) : val_main_v51 (F := Ideal) x1 = wrapCol x1 := by
  funext i
  rw [val_main_v51_apply, v50_at]
  exact congrArg (fun j => wrapAt (x1 j)) (idx_col i)

theorem v2_eq (x1 : IVec S1600000 32) : val_main_v2 (F := Ideal) x1 = rawCol x1 := by
  funext i
  rw [val_main_v2_apply]
  exact congrArg x1 (idx_col i)
theorem v5_eq (x2 : IVec S1600000 32) : val_main_v5 (F := Ideal) x2 = rawCol x2 := by
  funext i
  rw [val_main_v5_apply]
  exact congrArg x2 (idx_col i)
theorem v22_eq (x2 : IVec S1600000 32) : val_main_v22 (F := Ideal) x2 = rawCol x2 := by
  funext i
  rw [val_main_v22_apply]
  exact congrArg x2 (idx_col i)
theorem v34_eq (x1 : IVec S1600000 32) : val_main_v34 (F := Ideal) x1 = rawCol x1 := by
  funext i
  rw [val_main_v34_apply]
  exact congrArg x1 (idx_col i)
theorem v37_eq (x2 : IVec S1600000 32) : val_main_v37 (F := Ideal) x2 = rawCol x2 := by
  funext i
  rw [val_main_v37_apply]
  exact congrArg x2 (idx_col i)
theorem v54_eq (x2 : IVec S1600000 32) : val_main_v54 (F := Ideal) x2 = rawCol x2 := by
  funext i
  rw [val_main_v54_apply]
  exact congrArg x2 (idx_col i)

/-! ## Degrees and norms -/

/-- A degree scatter read at node `n`: from a zero operand, with every update the word of 1.0, it is zero plus one
    `one` per edge landing on `n`. -/
theorem deg_at (v : IVec S1600000 32) (zero : FVec Ideal S100000 .f32) (ones : FVec Ideal S1600000 .f32)
    (hz : ∀ i, zero i = 0) (ho : ∀ i, ones i = one) (n : Fin 100000) :
    Host.scatterAdd (F := Ideal) scatter_S100000_S1600000x1_S1600000_n_0_0_1 zero (rawCol v) ones (ix1 n)
      = agg (landsBy v) (fun _ => one) n := by
  refine (scatterAdd_vec_apply (N := 100000) (E := 1600000) scatter_S100000_S1600000x1_S1600000_n_0_0_1_wf zero (rawCol v) ones n).trans ?_
  unfold agg landsBy
  rw [hz]
  exact congrArg _ (Finset.sum_congr rfl (fun e _ => ho _))

theorem v0_at (i : S1600000.Idx) : val_main_v0 (F := Ideal) i = one := by
  rw [val_main_v0_apply, val_main_cst_apply]; rfl
theorem v32_at (i : S1600000.Idx) : val_main_v32 (F := Ideal) i = one := by
  rw [val_main_v32_apply, val_main_cst_6_apply]; rfl
theorem v1_at (i : S100000.Idx) : val_main_v1 (F := Ideal) i = 0 := by
  rw [val_main_v1_apply, val_main_cst_0_apply]; exact Ideal.ofBits_zero_f32
theorem v4_at (i : S100000.Idx) : val_main_v4 (F := Ideal) i = 0 := by
  rw [val_main_v4_apply, val_main_cst_1_apply]; exact Ideal.ofBits_zero_f32
theorem v33_at (i : S100000.Idx) : val_main_v33 (F := Ideal) i = 0 := by
  rw [val_main_v33_apply, val_main_cst_7_apply]; exact Ideal.ofBits_zero_f32
theorem v36_at (i : S100000.Idx) : val_main_v36 (F := Ideal) i = 0 := by
  rw [val_main_v36_apply, val_main_cst_8_apply]; exact Ideal.ofBits_zero_f32

theorem v3_at (x1 : IVec S1600000 32) (n : Fin 100000) :
    val_main_v3 (F := Ideal) x1 (ix1 n) = agg (landsBy x1) (fun _ => one) n := by
  unfold val_main_v3
  rw [v2_eq]
  exact deg_at x1 _ _ v1_at v0_at n
theorem v6_at (x2 : IVec S1600000 32) (n : Fin 100000) :
    val_main_v6 (F := Ideal) x2 (ix1 n) = agg (landsBy x2) (fun _ => one) n := by
  unfold val_main_v6
  rw [v5_eq]
  exact deg_at x2 _ _ v4_at v0_at n
theorem v35_at (x1 : IVec S1600000 32) (n : Fin 100000) :
    val_main_v35 (F := Ideal) x1 (ix1 n) = agg (landsBy x1) (fun _ => one) n := by
  unfold val_main_v35
  rw [v34_eq]
  exact deg_at x1 _ _ v33_at v32_at n
theorem v38_at (x2 : IVec S1600000 32) (n : Fin 100000) :
    val_main_v38 (F := Ideal) x2 (ix1 n) = agg (landsBy x2) (fun _ => one) n := by
  unfold val_main_v38
  rw [v37_eq]
  exact deg_at x2 _ _ v36_at v32_at n

/-- The source norm of layer 1. -/
theorem v8_at (x1 : IVec S1600000 32) (n : Fin 100000) : val_main_v8 (F := Ideal) x1 (ix1 n) = normBy x1 n := by
  rw [val_main_v8_apply, val_main_v7_apply, val_main_call0_v1_apply, val_main_call0_v0_apply, val_main_cst_2_apply, v3_at, Ideal.hostUnary_rsqrt_def, Ideal.maximumf_def, Ideal.ofBits_def]
  rfl
/-- The destination norm of layer 1. -/
theorem v10_at (x2 : IVec S1600000 32) (n : Fin 100000) : val_main_v10 (F := Ideal) x2 (ix1 n) = normBy x2 n := by
  rw [val_main_v10_apply, val_main_v9_apply, val_main_call1_v1_apply, val_main_call1_v0_apply, val_main_cst_3_apply, v6_at, Ideal.hostUnary_rsqrt_def, Ideal.maximumf_def, Ideal.ofBits_def]
  rfl
/-- The source norm of layer 2. -/
theorem v40_at (x1 : IVec S1600000 32) (n : Fin 100000) : val_main_v40 (F := Ideal) x1 (ix1 n) = normBy x1 n := by
  rw [val_main_v40_apply, val_main_v39_apply, val_main_call3_v1_apply, val_main_call3_v0_apply, val_main_cst_9_apply, v35_at, Ideal.hostUnary_rsqrt_def, Ideal.maximumf_def, Ideal.ofBits_def]
  rfl
/-- The destination norm of layer 2. -/
theorem v42_at (x2 : IVec S1600000 32) (n : Fin 100000) : val_main_v42 (F := Ideal) x2 (ix1 n) = normBy x2 n := by
  rw [val_main_v42_apply, val_main_v41_apply, val_main_call4_v1_apply, val_main_call4_v0_apply, val_main_cst_10_apply, v38_at, Ideal.hostUnary_rsqrt_def, Ideal.maximumf_def, Ideal.ofBits_def]
  rfl

/-! ## A layer's aggregation: gather the rows along the edges, scatter them into the destination rows -/

/-- Rows gathered at the wrapped source indices and scatter-added from zero at the raw destination indices: at
    `(n, k)` zero plus the sum, over the edges landing on `n`, of column `k` of the row each edge reads. -/
theorem layer_agg (Y zero : FVec Ideal S100000x128 .f32) (hz : ∀ i, zero i = 0) (x1 x2 : IVec S1600000 32)
    (n : Fin 100000) (k : Fin 128) :
    Host.scatterAdd (F := Ideal) scatter_S100000x128_S1600000x1_S1600000x128_1_0_0_1 zero (rawCol x2)
        (Host.gather gather_S100000x128_S1600000x1_S1600000x128_1_0_n_n_0_1_1128 Y (wrapCol x1)) (ix2 n k)
      = agg (landsBy x2) (fun e => Y (ix2 (readsOf x1 e) k)) n := by
  refine (scatterAdd_rows_apply (N := 100000) (E := 1600000) (C := 128)
    scatter_S100000x128_S1600000x1_S1600000x128_1_0_0_1_wf zero (rawCol x2) _ n k).trans ?_
  unfold agg landsBy
  rw [hz]
  refine congrArg _ (Finset.sum_congr rfl (fun e _ => ?_))
  exact gather_rows_apply (N := 100000) (E := 1600000) (C := 128) (by decide)
    gather_S100000x128_S1600000x1_S1600000x128_1_0_n_n_0_1_1128_wf Y (wrapCol x1) e k

/-- The vector index of node `n` under a column broadcast followed by a row-width broadcast. -/
theorem idx_node (n : Fin 100000) (k : Fin 128) :
    (fun a => match a with | ⟨0, _⟩ => ⟨n.val, n.isLt⟩ : S100000.Idx) = ix1 n := by
  funext a; match a with | ⟨0, _⟩ => rfl

theorem v12_at (x1 : IVec S1600000 32) (n : Fin 100000) (k : Fin 128) :
    val_main_v12 (F := Ideal) x1 (ix2 n k) = normBy x1 n := by
  rw [val_main_v12_apply, val_main_v11_apply, ← v8_at]
  exact congrArg (val_main_v8 (F := Ideal) x1) (idx_node n k)
theorem v25_at (x2 : IVec S1600000 32) (n : Fin 100000) (k : Fin 128) :
    val_main_v25 (F := Ideal) x2 (ix2 n k) = normBy x2 n := by
  rw [val_main_v25_apply, val_main_v24_apply, ← v10_at]
  exact congrArg (val_main_v10 (F := Ideal) x2) (idx_node n k)
theorem v44_at (x1 : IVec S1600000 32) (n : Fin 100000) (k : Fin 128) :
    val_main_v44 (F := Ideal) x1 (ix2 n k) = normBy x1 n := by
  rw [val_main_v44_apply, val_main_v43_apply, ← v40_at]
  exact congrArg (val_main_v40 (F := Ideal) x1) (idx_node n k)
theorem v57_at (x2 : IVec S1600000 32) (n : Fin 100000) (k : Fin 128) :
    val_main_v57 (F := Ideal) x2 (ix2 n k) = normBy x2 n := by
  rw [val_main_v57_apply, val_main_v56_apply, ← v42_at]
  exact congrArg (val_main_v42 (F := Ideal) x2) (idx_node n k)

theorem v21_at (i : S100000x128.Idx) : val_main_v21 (F := Ideal) i = 0 := by
  rw [val_main_v21_apply, val_main_cst_5_apply]; exact Ideal.ofBits_zero_f32
theorem v53_at (i : S100000x128.Idx) : val_main_v53 (F := Ideal) i = 0 := by
  rw [val_main_v53_apply, val_main_cst_13_apply]; exact Ideal.ofBits_zero_f32
theorem relu0_at (i : S100000x128.Idx) : val_main_call2_v0 (F := Ideal) i = 0 := by
  rw [val_main_call2_v0_apply, val_main_call2_cst_apply]; exact Ideal.ofBits_zero_f32

/-! ## Layer 1 -/

theorem v13_at (x0 : FVec Ideal S100000x128 .f32) (x1 : IVec S1600000 32) (n : Fin 100000) (k : Fin 128) :
    val_main_v13 (F := Ideal) x0 x1 (ix2 n k) = x0 (ix2 n k) * normBy x1 n := by
  rw [val_main_v13_apply, v12_at, Ideal.mulf_def]

/-- Layer 1's aggregate at `(n, k)`. -/
theorem v23_at (x0 : FVec Ideal S100000x128 .f32) (x1 x2 : IVec S1600000 32) (n : Fin 100000) (k : Fin 128) :
    val_main_v23 (F := Ideal) x0 x1 x2 (ix2 n k)
      = agg (landsBy x2) (fun e => x0 (ix2 (readsOf x1 e) k) * normBy x1 (readsOf x1 e)) n := by
  unfold val_main_v23 val_main_v20
  rw [v22_eq, v19_eq, layer_agg _ _ v21_at]
  exact congrArg (fun f => agg (landsBy x2) f n) (funext fun e => v13_at x0 x1 (readsOf x1 e) k)

theorem v26_at (x0 : FVec Ideal S100000x128 .f32) (x1 x2 : IVec S1600000 32) (n : Fin 100000) (k : Fin 128) :
    val_main_v26 (F := Ideal) x0 x1 x2 (ix2 n k)
      = agg (landsBy x2) (fun e => x0 (ix2 (readsOf x1 e) k) * normBy x1 (readsOf x1 e)) n * normBy x2 n := by
  rw [val_main_v26_apply, v23_at, v25_at, Ideal.mulf_def]

theorem lidx27 (n : Fin 100000) (k k' : Fin 128) : lidx_main_v27 (ix2 n k) k' = ix2 n k' := by
  funext a; match a with | ⟨0, _⟩ => rfl | ⟨1, _⟩ => rfl
theorem ridx27 (n : Fin 100000) (k k' : Fin 128) : ridx_main_v27 (ix2 n k) k' = ix2 k' k := by
  funext a; match a with | ⟨0, _⟩ => rfl | ⟨1, _⟩ => rfl

theorem v29_at (x4 : FVec Ideal S128 .f32) (n : Fin 100000) (k : Fin 128) :
    val_main_v29 (F := Ideal) x4 (ix2 n k) = x4 (ix1 k) := by
  rw [val_main_v29_apply, val_main_v28_apply]
  exact congrArg x4 (by funext a; match a with | ⟨0, _⟩ => rfl)

/-- Layer 1 at `(n, k)`. -/
theorem v31_at (x0 : FVec Ideal S100000x128 .f32) (x1 x2 : IVec S1600000 32) (x3 : FVec Ideal S128x128 .f32)
    (x4 : FVec Ideal S128 .f32) (n : Fin 100000) (k : Fin 128) :
    val_main_v31 (F := Ideal) x0 x1 x2 x3 x4 (ix2 n k) = hiddenAt x0 x1 x2 x3 x4 n k := by
  rw [val_main_v31_apply, val_main_v30_apply, val_main_v27_apply, v29_at, relu0_at, Ideal.maximumf_def, Ideal.addf_def]
  unfold hiddenAt GraphConvAlgebra.hidden
  refine congrArg (fun s => max (s + x4 (ix1 k)) 0) (Finset.sum_congr rfl (fun k' _ => ?_))
  rw [lidx27, ridx27, v26_at]

/-! ## Layer 2 -/

theorem v45_at (x0 : FVec Ideal S100000x128 .f32) (x1 x2 : IVec S1600000 32) (x3 : FVec Ideal S128x128 .f32)
    (x4 : FVec Ideal S128 .f32) (n : Fin 100000) (k : Fin 128) :
    val_main_v45 (F := Ideal) x0 x1 x2 x3 x4 (ix2 n k) = hiddenAt x0 x1 x2 x3 x4 n k * normBy x1 n := by
  rw [val_main_v45_apply, v31_at, v44_at, Ideal.mulf_def]

/-- Layer 2's aggregate at `(n, k)`. -/
theorem v55_at (x0 : FVec Ideal S100000x128 .f32) (x1 x2 : IVec S1600000 32) (x3 : FVec Ideal S128x128 .f32)
    (x4 : FVec Ideal S128 .f32) (n : Fin 100000) (k : Fin 128) :
    val_main_v55 (F := Ideal) x0 x1 x2 x3 x4 (ix2 n k)
      = agg (landsBy x2) (fun e => hiddenAt x0 x1 x2 x3 x4 (readsOf x1 e) k * normBy x1 (readsOf x1 e)) n := by
  unfold val_main_v55 val_main_v52
  rw [v54_eq, v51_eq, layer_agg _ _ v53_at]
  exact congrArg (fun f => agg (landsBy x2) f n) (funext fun e => v45_at x0 x1 x2 x3 x4 (readsOf x1 e) k)

theorem v58_at (x0 : FVec Ideal S100000x128 .f32) (x1 x2 : IVec S1600000 32) (x3 : FVec Ideal S128x128 .f32)
    (x4 : FVec Ideal S128 .f32) (n : Fin 100000) (k : Fin 128) :
    val_main_v58 (F := Ideal) x0 x1 x2 x3 x4 (ix2 n k)
      = agg (landsBy x2) (fun e => hiddenAt x0 x1 x2 x3 x4 (readsOf x1 e) k * normBy x1 (readsOf x1 e)) n * normBy x2 n := by
  rw [val_main_v58_apply, v55_at, v57_at, Ideal.mulf_def]

theorem lidx59 (n : Fin 100000) (j : Fin 64) (k : Fin 128) : lidx_main_v59 (ix2 n j) k = ix2 n k := by
  funext a; match a with | ⟨0, _⟩ => rfl | ⟨1, _⟩ => rfl
theorem ridx59 (n : Fin 100000) (j : Fin 64) (k : Fin 128) : ridx_main_v59 (ix2 n j) k = ix2 k j := by
  funext a; match a with | ⟨0, _⟩ => rfl | ⟨1, _⟩ => rfl

theorem v61_at (x6 : FVec Ideal S64 .f32) (n : Fin 100000) (j : Fin 64) :
    val_main_v61 (F := Ideal) x6 (ix2 n j) = x6 (ix1 j) := by
  rw [val_main_v61_apply, val_main_v60_apply]
  exact congrArg x6 (by funext a; match a with | ⟨0, _⟩ => rfl)

/-- The reference's last stage at `(p, q)`. -/
theorem v62_at (x0 : FVec Ideal S100000x128 .f32) (x1 x2 : IVec S1600000 32) (x3 : FVec Ideal S128x128 .f32)
    (x4 : FVec Ideal S128 .f32) (x5 : FVec Ideal S128x64 .f32) (x6 : FVec Ideal S64 .f32) (p : Fin 100000) (q : Fin 64) :
    val_main_v62 (F := Ideal) x0 x1 x2 x3 x4 x5 x6 (ix2 p q)
      = refOut (readsOf x1) (landsBy x2) (normBy x1) (normBy x2) (hiddenAt x0 x1 x2 x3 x4) (fun k j => x5 (ix2 k j))
          (fun j => x6 (ix1 j)) p q := by
  rw [val_main_v62_apply, val_main_v59_apply, v61_at, Ideal.addf_def]
  unfold refOut
  refine congrArg (fun s => s + x6 (ix1 q)) (Finset.sum_congr rfl (fun k _ => ?_))
  rw [lidx59, ridx59, v58_at]

end Stages

/-- The reference's last stage is `resultRef` of the seven arguments. -/
theorem val_eq_resultRef (x0 : FVec Ideal S100000x128 .f32) (x1 x2 : IVec S1600000 32) (x3 : FVec Ideal S128x128 .f32)
    (x4 : FVec Ideal S128 .f32) (x5 : FVec Ideal S128x64 .f32) (x6 : FVec Ideal S64 .f32) :
    val_main_v62 (F := Ideal) x0 x1 x2 x3 x4 x5 x6 = Cert.GraphConv.resultRef x0 x1 x2 x3 x4 x5 x6 := by
  funext i
  obtain ⟨p, q, rfl⟩ : ∃ (p : Fin 100000) (q : Fin 64), i = ix2 p q := ⟨i 0, i 1, eq_ix2 i⟩
  exact v62_at x0 x1 x2 x3 x4 x5 x6 p q

end Cert.ReferenceIdeal.RefValue

end
-- ==== Proof.KerRun.lean ====
/-
  The idealized kernel's run with its result array named.

  @main is nine segments: five stretches of host operations, the first pallas_call, a stretch, the second
  pallas_call, and a last stretch. The contents of every unscoped buffer at each boundary are a fold through the
  segments (`W0` … `W9`): a stretch applies its operations, a region replaces its arrays by what its write-backs
  leave. Every weakly fair execution terminates with every unscoped buffer at the last boundary's contents `W9`;
  read at the result buffer this names the result, and read at an argument it gives the argument as launched.
-/
import proofs.«178335_j10977936409091_2_alg».proof.Proof.Gen.KernelIdeal.Frame

set_option maxRecDepth 16384

noncomputable section

namespace Cert.KernelIdeal.KerValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the seven argument arrays as launched. -/
theorem run_value : θ_run defs (onTc (τ := τ) (main (F := F))) ⟨m, fun _ => 0, ρ⟩ (fun r => ∀ c : Dev nD,
      r.2.mem ((c.tc : Thread nD τ).loc main_v53) = W9 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v53 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.KernelIdeal.KerValue

end
-- ==== Proof.KerStages.lean ====
/-
  The kernel's host operations as pure terms of the argument arrays, read index by index.

  Before the first region the host computes the two degree vectors (an accumulating scatter of ones by `src` and by
  `dst`), floors them at one and takes reciprocal square roots (`normT`); gathers the input rows and the source norms
  along the edges (negative indices wrapped, `wrapT`), multiplies them, and scatters the products into the
  destination rows (`agg1T`); and reshapes the destination norm to a column and the first bias to a row. Between the
  regions it reshapes the source norm to a column and a zero vector to a row. After the second region it gathers that
  region's rows along the edges, scatters them into the destination rows, scales by the destination norm and adds
  the second bias (`tailT`). Read at an index each is the specification's aggregate `agg` over the edges landing on a
  node, of rows read at the node an edge reads.
-/
import proofs.«178335_j10977936409091_2_alg».proof.KernelIdeal
import proofs.«178335_j10977936409091_2_alg».proof.Proof.GraphConvSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KerValue

open Cert.KernelIdeal Cert.KernelIdeal.Facts₀
open Idealize.ShloMosaic Idealize.ShloMosaic.ValueIdx Idealize.ShloMosaic.EdgeRows Idealize.ShloMosaic.GraphConvAlgebra
open Cert.GraphConv

variable [Cert.KernelIdeal.Facts]

/-! ## The stages -/

/-- The degree vector by an edge list: ones added into zeros at the listed nodes. -/
def degT (v : IVec S1600000 32) : FVec Ideal S100000 .f32 :=
  Host.scatterAdd (F := Ideal) scatter_S100000_S1600000x1_S1600000_n_0_0_1
    (broadcastInDim S100000 ![] bcast_S_S100000 (constant (F := Ideal) S_ .f32 0x00000000#32))
    (broadcastInDim S1600000x1 ![0] bcast_S1600000_S1600000x1_0 v)
    (broadcastInDim S1600000 ![] bcast_S_S1600000 (constant (F := Ideal) S_ .f32 0x3F800000#32))

/-- The norm vector by an edge list: the reciprocal square root of the degree floored at one. -/
def normT (v : IVec S1600000 32) : FVec Ideal S100000 .f32 :=
  Host.rsqrt (F := Ideal)
    (maximumf (broadcastInDim S100000 ![] bcast_S_S100000 (constant (F := Ideal) S_ .f32 0x3F800000#32)) (degT v))

/-- An edge list as a gather's one-column index array, the negative entries wrapped by the node count. -/
def wrapT (v : IVec S1600000 32) : IVec S1600000x1 32 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-- The first layer's aggregated messages: the gathered input rows times the gathered source norms, scattered into
    the destination rows of a zero array. -/
def agg1T (X : FVec Ideal S100000x128 .f32) (src dst : IVec S1600000 32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (mulf (Host.gather gather_S100000x128_S1600000x1_S1600000x128_1_0_n_n_0_1_1128 X (wrapT src))
      (broadcastInDim S1600000x128 ![0, 1] bcast_S1600000x1_S1600000x128_0_1
        (broadcastInDim S1600000x1 ![0] bcast_S1600000_S1600000x1_0
          (Host.gather gather_S100000_S1600000x1_S1600000_n_0_n_n_0_1_1 (normT src) (wrapT src)))))

/-- A norm vector as the one-column array the regions read. -/
def normColT (v : IVec S1600000 32) : FVec Ideal S100000x1 .f32 :=
  shapeCast S100000x1 (normT v) shapeCasts_S100000_S100000x1

/-- The first bias as the one-row array the first region reads. -/
def biasRowT (b : FVec Ideal S128 .f32) : FVec Ideal S1x128 .f32 := shapeCast S1x128 b shapeCasts_S128_S1x128

/-- The zero bias row the second region reads. -/
def zeroRowT : FVec Ideal S1x64 .f32 :=
  shapeCast S1x64 (broadcastInDim S64 ![] bcast_S_S64 (constant (F := Ideal) S_ .f32 0x00000000#32)) shapeCasts_S64_S1x64

/-- After the second region: its rows gathered along the edges, scattered into the destination rows of a zero
    array, scaled by the destination norm, plus the second bias. -/
def tailT (Z : FVec Ideal S100000x64 .f32) (src dst : IVec S1600000 32) (b2 : FVec Ideal S64 .f32) :
    FVec Ideal S100000x64 .f32 :=
  addf
    (mulf
      (Host.scatterAdd (F := Ideal) scatter_S100000x64_S1600000x1_S1600000x64_1_0_0_1
        (broadcastInDim S100000x64 ![] bcast_S_S100000x64 (constant (F := Ideal) S_ .f32 0x00000000#32))
        (broadcastInDim S1600000x1 ![0] bcast_S1600000_S1600000x1_0 dst)
        (Host.gather gather_S100000x64_S1600000x1_S1600000x64_1_0_n_n_0_1_164 Z (wrapT src)))
      (broadcastInDim S100000x64 ![0, 1] bcast_S100000x1_S100000x64_0_1
        (broadcastInDim S100000x1 ![0] bcast_S100000_S100000x1_0 (normT dst))))
    (broadcastInDim S100000x64 ![0, 1] bcast_S1x64_S100000x64_0_1 (broadcastInDim S1x64 ![1] bcast_S64_S1x64_1 b2))

/-! ## The stages at an index -/

/-- The wrapped index column is the specification's. -/
theorem wrapT_eq (v : IVec S1600000 32) : wrapT v = wrapCol v := by
  funext i
  unfold wrapT wrapCol
  exact (broadcastInDim_apply ![0] bcast_S1600000_S1600000x1_0 _ i (ix1 (i 0))
    (fun a => by match a with | ⟨0, _⟩ => rfl)).trans rfl

/-- An edge list broadcast to a column is the specification's raw column. -/
theorem rawT_eq (v : IVec S1600000 32) : broadcastInDim S1600000x1 ![0] bcast_S1600000_S1600000x1_0 v = rawCol v := by
  funext i
  unfold rawCol
  exact broadcastInDim_apply ![0] bcast_S1600000_S1600000x1_0 v i (ix1 (i 0))
    (fun a => by match a with | ⟨0, _⟩ => rfl)

/-- The reciprocal square root of a vector floored at one, read at an index. -/
theorem rsqrt_floor_apply (d : FVec Ideal S100000 .f32) (i : S100000.Idx) :
    Host.rsqrt (F := Ideal)
      (maximumf (broadcastInDim S100000 ![] bcast_S_S100000 (constant (F := Ideal) S_ .f32 0x3F800000#32)) d) i
      = Ideal.rsqrt (max one (d i)) := rfl

/-- The norm vector at node `n`. -/
theorem normT_apply (v : IVec S1600000 32) (n : Fin 100000) : normT v (ix1 n) = normBy v n := by
  -- the degree at `n`: zero plus, over the edges landing on `n`, one each
  have hdeg : degT v (ix1 n) = agg (landsBy v) (fun _ => one) n := by
    unfold degT
    refine (scatterAdd_vec_apply (N := 100000) (E := 1600000) scatter_S100000_S1600000x1_S1600000_n_0_0_1_wf
      _ _ _ n).trans ?_
    rw [rawT_eq]
    unfold agg landsBy
    have h0 : ((broadcastInDim S100000 ![] bcast_S_S100000 (constant (F := Ideal) S_ .f32 0x00000000#32)) (ix1 n) : EReal) = 0 :=
      Ideal.ofBits_zero_f32
    rw [h0]
    refine congrArg (fun s => (0 : EReal) + s) (Finset.sum_congr rfl (fun e _ => ?_))
    rfl
  refine (rsqrt_floor_apply (degT v) (ix1 n)).trans ?_
  exact congrArg (fun t => Ideal.rsqrt (max one t)) hdeg

/-- The norm column at row `n`. -/
theorem normColT_apply (v : IVec S1600000 32) (n : Fin 100000) : normColT v (ix2 n (0 : Fin 1)) = normBy v n := by
  unfold normColT
  refine (shapeCast_apply (normT v) shapeCasts_S100000_S100000x1 (ix2 n (0 : Fin 1)) (ix1 n) ?_).trans (normT_apply v n)
  rw [Shape.rowMajor_val_two, Shape.rowMajor_val_one]
  show n.val = n.val * 1 + 0
  omega

/-- The bias row at column `k`. -/
theorem biasRowT_apply (b : FVec Ideal S128 .f32) (k : Fin 128) : biasRowT b (ix2 (0 : Fin 1) k) = b (ix1 k) := by
  unfold biasRowT
  exact shapeCast_a_1a_apply b shapeCasts_S128_S1x128 (0 : Fin 1) k

/-- The zero row is zero. -/
theorem zeroRowT_apply (j : Fin 64) : zeroRowT (ix2 (0 : Fin 1) j) = (0 : EReal) := by
  unfold zeroRowT
  refine (shapeCast_a_1a_apply _ shapeCasts_S64_S1x64 (0 : Fin 1) j).trans ?_
  exact Ideal.ofBits_zero_f32

/-- A vector along the edges broadcast to a column and then across 128 columns, read at `(e, k)`: the vector at `e`. -/
theorem bcastEdgeCols_apply (g : FVec Ideal S1600000 .f32) (e : Fin 1600000) (k : Fin 128) :
    broadcastInDim S1600000x128 ![0, 1] bcast_S1600000x1_S1600000x128_0_1
      (broadcastInDim S1600000x1 ![0] bcast_S1600000_S1600000x1_0 g) (ix2 e k) = g (ix1 e) := by
  refine (broadcastInDim_apply ![0, 1] bcast_S1600000x1_S1600000x128_0_1 _ (ix2 e k) (ix2 e (0 : Fin 1)) ?_).trans ?_
  · intro a
    match a with
    | ⟨0, _⟩ => rfl
    | ⟨1, _⟩ => rfl
  exact broadcastInDim_apply ![0] bcast_S1600000_S1600000x1_0 g (ix2 e (0 : Fin 1)) (ix1 e)
    (fun a => by match a with | ⟨0, _⟩ => rfl)

/-- The first layer's aggregated messages at `(n, k)`: over the edges landing on `n`, the input at the node the edge
    reads times that node's source norm. -/
theorem agg1T_apply (X : FVec Ideal S100000x128 .f32) (src dst : IVec S1600000 32) (n : Fin 100000) (k : Fin 128) :
    agg1T X src dst (ix2 n k)
      = agg (landsBy dst) (fun e => (X (ix2 (readsOf src e) k) : EReal) * normBy src (readsOf src e)) n := by
  unfold agg1T
  refine (scatterAdd_rows_apply (N := 100000) (E := 1600000) (C := 128)
    scatter_S100000x128_S1600000x1_S1600000x128_1_0_0_1_wf _ _ _ n k).trans ?_
  rw [rawT_eq, wrapT_eq]
  unfold agg landsBy
  have h0 : ((broadcastInDim S100000x128 ![] bcast_S_S100000x128 (constant (F := Ideal) S_ .f32 0x00000000#32))
      (ix2 n k) : EReal) = 0 := Ideal.ofBits_zero_f32
  rw [h0]
  refine congrArg (fun s => (0 : EReal) + s) (Finset.sum_congr rfl (fun e _ => ?_))
  -- the update at `(e, k)`: the gathered input entry times the gathered source norm
  refine (mulf_apply _ _ (ix2 e k)).trans ?_
  have hG : Host.gather gather_S100000x128_S1600000x1_S1600000x128_1_0_n_n_0_1_1128 X (wrapCol src) (ix2 e k)
      = X (ix2 (readsOf src e) k) :=
    gather_rows_apply (N := 100000) (E := 1600000) (C := 128) (by decide)
      gather_S100000x128_S1600000x1_S1600000x128_1_0_n_n_0_1_1128_wf X (wrapCol src) e k
  have hB : Host.gather gather_S100000_S1600000x1_S1600000_n_0_n_n_0_1_1 (normT src) (wrapCol src) (ix1 e)
      = normBy src (readsOf src e) :=
    (gather_vec_apply (N := 100000) (E := 1600000) (by decide)
      gather_S100000_S1600000x1_S1600000_n_0_n_n_0_1_1_wf (normT src) (wrapCol src) e).trans (normT_apply src _)
  exact congrArg₂ (fun a b : EReal => a * b) hG ((bcastEdgeCols_apply _ e k).trans hB)

/-- A vector over the nodes broadcast to a column and then across 64 columns, read at `(i, j)`: the vector at `i`. -/
theorem bcastNodeCols_apply (g : FVec Ideal S100000 .f32) (i : Fin 100000) (j : Fin 64) :
    broadcastInDim S100000x64 ![0, 1] bcast_S100000x1_S100000x64_0_1
      (broadcastInDim S100000x1 ![0] bcast_S100000_S100000x1_0 g) (ix2 i j) = g (ix1 i) := by
  refine (broadcastInDim_apply ![0, 1] bcast_S100000x1_S100000x64_0_1 _ (ix2 i j) (ix2 i (0 : Fin 1)) ?_).trans ?_
  · intro a
    match a with
    | ⟨0, _⟩ => rfl
    | ⟨1, _⟩ => rfl
  exact broadcastInDim_apply ![0] bcast_S100000_S100000x1_0 g (ix2 i (0 : Fin 1)) (ix1 i)
    (fun a => by match a with | ⟨0, _⟩ => rfl)

/-- A vector of 64 entries broadcast to a row and then down the node rows, read at `(i, j)`: the vector at `j`. -/
theorem bcastRowNodes_apply (b : FVec Ideal S64 .f32) (i : Fin 100000) (j : Fin 64) :
    broadcastInDim S100000x64 ![0, 1] bcast_S1x64_S100000x64_0_1
      (broadcastInDim S1x64 ![1] bcast_S64_S1x64_1 b) (ix2 i j) = b (ix1 j) := by
  refine (broadcastInDim_apply ![0, 1] bcast_S1x64_S100000x64_0_1 _ (ix2 i j) (ix2 (0 : Fin 1) j) ?_).trans ?_
  · intro a
    match a with
    | ⟨0, _⟩ => rfl
    | ⟨1, _⟩ => rfl
  exact broadcastInDim_apply ![1] bcast_S64_S1x64_1 b (ix2 (0 : Fin 1) j) (ix1 j)
    (fun a => by match a with | ⟨0, _⟩ => rfl)

/-- The second region's rows gathered along the edges and scattered into the destination rows of a zero array, read
    at `(i, j)`: the aggregate over the edges landing on `i` of the row entries read. -/
theorem scatterGather64_apply (Z : FVec Ideal S100000x64 .f32) (src dst : IVec S1600000 32) (i : Fin 100000) (j : Fin 64) :
    Host.scatterAdd (F := Ideal) scatter_S100000x64_S1600000x1_S1600000x64_1_0_0_1
        (broadcastInDim S100000x64 ![] bcast_S_S100000x64 (constant (F := Ideal) S_ .f32 0x00000000#32))
        (broadcastInDim S1600000x1 ![0] bcast_S1600000_S1600000x1_0 dst)
        (Host.gather gather_S100000x64_S1600000x1_S1600000x64_1_0_n_n_0_1_164 Z (wrapT src)) (ix2 i j)
      = agg (landsBy dst) (fun e => (Z (ix2 (readsOf src e) j) : EReal)) i := by
  refine (scatterAdd_rows_apply (N := 100000) (E := 1600000) (C := 64)
    scatter_S100000x64_S1600000x1_S1600000x64_1_0_0_1_wf _ _ _ i j).trans ?_
  rw [rawT_eq, wrapT_eq]
  unfold agg landsBy
  have h0 : ((broadcastInDim S100000x64 ![] bcast_S_S100000x64 (constant (F := Ideal) S_ .f32 0x00000000#32))
      (ix2 i j) : EReal) = 0 := Ideal.ofBits_zero_f32
  rw [h0]
  refine congrArg (fun s => (0 : EReal) + s) (Finset.sum_congr rfl (fun e _ => ?_))
  exact gather_rows_apply (N := 100000) (E := 1600000) (C := 64) (by decide)
    gather_S100000x64_S1600000x1_S1600000x64_1_0_n_n_0_1_164_wf Z (wrapCol src) e j

/-- The last stretch at `(i, j)`: the second region's rows aggregated along the edges, scaled, plus the bias. -/
theorem tailT_apply (Z : FVec Ideal S100000x64 .f32) (src dst : IVec S1600000 32) (b2 : FVec Ideal S64 .f32)
    (i : Fin 100000) (j : Fin 64) :
    tailT Z src dst b2 (ix2 i j)
      = (agg (landsBy dst) (fun e => (Z (ix2 (readsOf src e) j) : EReal)) i * normBy dst i) + (b2 (ix1 j) : EReal) := by
  unfold tailT
  refine (addf_apply _ _ (ix2 i j)).trans ?_
  refine congrArg₂ (fun a b : EReal => a + b) ?_ (bcastRowNodes_apply b2 i j)
  refine (mulf_apply _ _ (ix2 i j)).trans ?_
  exact congrArg₂ (fun a b : EReal => a * b) (scatterGather64_apply Z src dst i j)
    ((bcastNodeCols_apply (normT dst) i j).trans (normT_apply dst i))

end Cert.KernelIdeal.KerValue

end
-- ==== Proof.KerHost.lean ====
/-
  What the buffers read by the two regions and by the last stretch hold at each boundary of the kernel's run, as
  the stage terms of the argument arrays.

  The contents at a boundary are a fold through the segments. A stretch of host operations is read one stretch at a
  time, over ANY contents before it: each written buffer is its operation's function of the operands' contents, and
  a buffer the stretch does not write keeps its contents. A region replaces its output array by what its
  write-backs leave and keeps every buffer that is not one of its arrays.
-/
import proofs.«178335_j10977936409091_2_alg».proof.Proof.Gen.KernelIdeal.Frame
import proofs.«178335_j10977936409091_2_alg».proof.Proof.KerStages
import Idealize.ShloMosaic.Lib.StableHlo.Run

set_option maxRecDepth 16384

noncomputable section

namespace Cert.KernelIdeal.KerValue

open Cert.KernelIdeal Cert.KernelIdeal.Gen
open Idealize.ShloMosaic Idealize.ShloMosaic.TcCoe Idealize.ShloMosaic.StableHlo
open Idealize.SL.Sem

/-- The first layer's aggregated messages with the source-norm vector a parameter. -/
def agg1Tp (X : FVec Ideal S100000x128 .f32) (src dst : IVec S1600000 32) (nsv : FVec Ideal S100000 .f32) :
    FVec Ideal S100000x128 .f32 :=
  Host.scatterAdd (F := Ideal) scatter_S100000x128_S1600000x1_S1600000x128_1_0_0_1
    (broadcastInDim S100000x128 ![] Facts₀.bcast_S_S100000x128 (constant (F := Ideal) S_ .f32 0x00000000#32))
    (broadcastInDim S1600000x1 ![0] Facts₀.bcast_S1600000_S1600000x1_0 dst)
    (mulf (Host.gather gather_S100000x128_S1600000x1_S1600000x128_1_0_n_n_0_1_1128 X (wrapT src))
      (broadcastInDim S1600000x128 ![0, 1] Facts₀.bcast_S1600000x1_S1600000x128_0_1
        (broadcastInDim S1600000x1 ![0] Facts₀.bcast_S1600000_S1600000x1_0
          (Host.gather gather_S100000_S1600000x1_S1600000_n_0_n_n_0_1_1 nsv (wrapT src)))))

theorem agg1Tp_normT (X : FVec Ideal S100000x128 .f32) (src dst : IVec S1600000 32) :
    agg1Tp X src dst (normT src) = agg1T X src dst := rfl

/-! ## The long stretch before the first region, over any contents before it -/

section Stretch
variable (V : Valuation τ sig (Elt Ideal))

theorem s4_v30 : StableHlo.after hostOps0_4 V (Proc.devRef .tc main_v30)
    = agg1Tp (V (Proc.devRef .tc main_arg0)) (V (Proc.devRef .tc main_arg1)) (V (Proc.devRef .tc main_arg2))
        (V (Proc.devRef .tc main_v8)) := by
  dsimp only [hostOps0_4]
  after_results_simp <;> rfl

theorem s4_v10 : StableHlo.after hostOps0_4 V (Proc.devRef .tc main_v10) = Host.rsqrt (F := Ideal) (s := S100000) (φ := .f32) (V (Proc.devRef .tc main_v9)) := by
  dsimp only [hostOps0_4]
  after_results_simp <;> rfl

theorem s4_v31 : StableHlo.after hostOps0_4 V (Proc.devRef .tc main_v31)
    = shapeCast S100000x1 (Host.rsqrt (F := Ideal) (s := S100000) (φ := .f32) (V (Proc.devRef .tc main_v9))) Facts₀.shapeCasts_S100000_S100000x1 := by
  dsimp only [hostOps0_4]
  after_results_simp <;> rfl

theorem s4_v32 : StableHlo.after hostOps0_4 V (Proc.devRef .tc main_v32) = biasRowT (V (Proc.devRef .tc main_arg4)) := by
  dsimp only [hostOps0_4]
  after_results_simp <;> rfl

/-! ## The stretch between the regions, and the last stretch, over any contents before them -/

theorem s5_v35 : StableHlo.after hostOps1 V (Proc.devRef .tc main_v35)
    = shapeCast (s := S100000) (α := Ideal .f32) S100000x1 (V (Proc.devRef .tc main_v8)) Facts₀.shapeCasts_S100000_S100000x1 := by
  dsimp only [hostOps1]
  after_results_simp <;> rfl

theorem s5_v36 : StableHlo.after hostOps1 V (Proc.devRef .tc main_v36) = zeroRowT := by
  dsimp only [hostOps1]
  after_results_simp <;> rfl

/-- The last stretch with the destination-norm vector a parameter. -/
def tailTp (Z : FVec Ideal S100000x64 .f32) (src dst : IVec S1600000 32) (b2 : FVec Ideal S64 .f32)
    (ndv : FVec Ideal S100000 .f32) : FVec Ideal S100000x64 .f32 :=
  addf
    (mulf
      (Host.scatterAdd (F := Ideal) scatter_S100000x64_S1600000x1_S1600000x64_1_0_0_1
        (broadcastInDim S100000x64 ![] Facts₀.bcast_S_S100000x64 (constant (F := Ideal) S_ .f32 0x00000000#32))
        (broadcastInDim S1600000x1 ![0] Facts₀.bcast_S1600000_S1600000x1_0 dst)
        (Host.gather gather_S100000x64_S1600000x1_S1600000x64_1_0_n_n_0_1_164 Z (wrapT src)))
      (broadcastInDim S100000x64 ![0, 1] Facts₀.bcast_S100000x1_S100000x64_0_1
        (broadcastInDim S100000x1 ![0] Facts₀.bcast_S100000_S100000x1_0 ndv)))
    (broadcastInDim S100000x64 ![0, 1] Facts₀.bcast_S1x64_S100000x64_0_1 (broadcastInDim S1x64 ![1] Facts₀.bcast_S64_S1x64_1 b2))

theorem tailTp_normT (Z : FVec Ideal S100000x64 .f32) (src dst : IVec S1600000 32) (b2 : FVec Ideal S64 .f32) :
    tailTp Z src dst b2 (normT dst) = tailT Z src dst b2 := rfl

theorem s6_v53 : StableHlo.after hostOps2 V (Proc.devRef .tc main_v53)
    = tailTp (V (Proc.devRef .tc main_v37)) (V (Proc.devRef .tc main_arg1)) (V (Proc.devRef .tc main_arg2))
        (V (Proc.devRef .tc main_arg6)) (V (Proc.devRef .tc main_v10)) := by
  dsimp only [hostOps2]
  after_results_simp <;> rfl

end Stretch

end Cert.KernelIdeal.KerValue

end
-- ==== Proof.KerCarry.lean ====
/-
  The stretches before the first region, one at a time and over ANY contents before them: a buffer a stretch does
  not write keeps its contents; the early stretches write the two degree vectors, floor them at one and take the
  source norm's reciprocal square root. Chained from the launch, every argument array is, at each boundary, the
  array as launched; the source norm is written early and then only carried; the floored in-degree is written just
  before the long stretch.
-/
import proofs.«178335_j10977936409091_2_alg».proof.Proof.KerHost

set_option maxRecDepth 16384

noncomputable section

namespace Cert.KernelIdeal.KerValue

open Cert.KernelIdeal Cert.KernelIdeal.Gen
open Idealize.ShloMosaic Idealize.ShloMosaic.TcCoe Idealize.ShloMosaic.StableHlo
open Idealize.SL.Sem

/-- A buffer none of a stretch's operations writes keeps its contents: every operation's written buffer is another
    reference. -/
macro "keep_stretch" : tactic => `(tactic| exact StableHlo.after_of_forall_not_mem _ _ (List.forall_iff_forall_mem.mp (by
  simp only [hostOps0, hostOps0_1, hostOps0_2, hostOps0_3, hostOps0_4, List.Forall, StableHlo.nullary_writes,
    StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide))))

/-! ## One stretch at a time, over any contents before it -/

section Stretch
variable (V : Valuation τ sig (Elt Ideal))

theorem k0_arg0 : StableHlo.after hostOps0 V (Proc.devRef .tc main_arg0) = V (Proc.devRef .tc main_arg0) := by keep_stretch
theorem k1_arg0 : StableHlo.after hostOps0_1 V (Proc.devRef .tc main_arg0) = V (Proc.devRef .tc main_arg0) := by keep_stretch
theorem k2_arg0 : StableHlo.after hostOps0_2 V (Proc.devRef .tc main_arg0) = V (Proc.devRef .tc main_arg0) := by keep_stretch
theorem k3_arg0 : StableHlo.after hostOps0_3 V (Proc.devRef .tc main_arg0) = V (Proc.devRef .tc main_arg0) := by keep_stretch
theorem k0_arg1 : StableHlo.after hostOps0 V (Proc.devRef .tc main_arg1) = V (Proc.devRef .tc main_arg1) := by keep_stretch
theorem k1_arg1 : StableHlo.after hostOps0_1 V (Proc.devRef .tc main_arg1) = V (Proc.devRef .tc main_arg1) := by keep_stretch
theorem k2_arg1 : StableHlo.after hostOps0_2 V (Proc.devRef .tc main_arg1) = V (Proc.devRef .tc main_arg1) := by keep_stretch
theorem k3_arg1 : StableHlo.after hostOps0_3 V (Proc.devRef .tc main_arg1) = V (Proc.devRef .tc main_arg1) := by keep_stretch
theorem k4_arg1 : StableHlo.after hostOps0_4 V (Proc.devRef .tc main_arg1) = V (Proc.devRef .tc main_arg1) := by keep_stretch
theorem k0_arg2 : StableHlo.after hostOps0 V (Proc.devRef .tc main_arg2) = V (Proc.devRef .tc main_arg2) := by keep_stretch
theorem k1_arg2 : StableHlo.after hostOps0_1 V (Proc.devRef .tc main_arg2) = V (Proc.devRef .tc main_arg2) := by keep_stretch
theorem k2_arg2 : StableHlo.after hostOps0_2 V (Proc.devRef .tc main_arg2) = V (Proc.devRef .tc main_arg2) := by keep_stretch
theorem k3_arg2 : StableHlo.after hostOps0_3 V (Proc.devRef .tc main_arg2) = V (Proc.devRef .tc main_arg2) := by keep_stretch
theorem k4_arg2 : StableHlo.after hostOps0_4 V (Proc.devRef .tc main_arg2) = V (Proc.devRef .tc main_arg2) := by keep_stretch
theorem k0_arg3 : StableHlo.after hostOps0 V (Proc.devRef .tc main_arg3) = V (Proc.devRef .tc main_arg3) := by keep_stretch
theorem k1_arg3 : StableHlo.after hostOps0_1 V (Proc.devRef .tc main_arg3) = V (Proc.devRef .tc main_arg3) := by keep_stretch
theorem k2_arg3 : StableHlo.after hostOps0_2 V (Proc.devRef .tc main_arg3) = V (Proc.devRef .tc main_arg3) := by keep_stretch
theorem k3_arg3 : StableHlo.after hostOps0_3 V (Proc.devRef .tc main_arg3) = V (Proc.devRef .tc main_arg3) := by keep_stretch
theorem k4_arg3 : StableHlo.after hostOps0_4 V (Proc.devRef .tc main_arg3) = V (Proc.devRef .tc main_arg3) := by keep_stretch
theorem k0_arg4 : StableHlo.after hostOps0 V (Proc.devRef .tc main_arg4) = V (Proc.devRef .tc main_arg4) := by keep_stretch
theorem k1_arg4 : StableHlo.after hostOps0_1 V (Proc.devRef .tc main_arg4) = V (Proc.devRef .tc main_arg4) := by keep_stretch
theorem k2_arg4 : StableHlo.after hostOps0_2 V (Proc.devRef .tc main_arg4) = V (Proc.devRef .tc main_arg4) := by keep_stretch
theorem k3_arg4 : StableHlo.after hostOps0_3 V (Proc.devRef .tc main_arg4) = V (Proc.devRef .tc main_arg4) := by keep_stretch
theorem k0_arg5 : StableHlo.after hostOps0 V (Proc.devRef .tc main_arg5) = V (Proc.devRef .tc main_arg5) := by keep_stretch
theorem k1_arg5 : StableHlo.after hostOps0_1 V (Proc.devRef .tc main_arg5) = V (Proc.devRef .tc main_arg5) := by keep_stretch
theorem k2_arg5 : StableHlo.after hostOps0_2 V (Proc.devRef .tc main_arg5) = V (Proc.devRef .tc main_arg5) := by keep_stretch
theorem k3_arg5 : StableHlo.after hostOps0_3 V (Proc.devRef .tc main_arg5) = V (Proc.devRef .tc main_arg5) := by keep_stretch
theorem k4_arg5 : StableHlo.after hostOps0_4 V (Proc.devRef .tc main_arg5) = V (Proc.devRef .tc main_arg5) := by keep_stretch
theorem k0_arg6 : StableHlo.after hostOps0 V (Proc.devRef .tc main_arg6) = V (Proc.devRef .tc main_arg6) := by keep_stretch
theorem k1_arg6 : StableHlo.after hostOps0_1 V (Proc.devRef .tc main_arg6) = V (Proc.devRef .tc main_arg6) := by keep_stretch
theorem k2_arg6 : StableHlo.after hostOps0_2 V (Proc.devRef .tc main_arg6) = V (Proc.devRef .tc main_arg6) := by keep_stretch
theorem k3_arg6 : StableHlo.after hostOps0_3 V (Proc.devRef .tc main_arg6) = V (Proc.devRef .tc main_arg6) := by keep_stretch
theorem k4_arg6 : StableHlo.after hostOps0_4 V (Proc.devRef .tc main_arg6) = V (Proc.devRef .tc main_arg6) := by keep_stretch
theorem k1_v6 : StableHlo.after hostOps0_1 V (Proc.devRef .tc main_v6) = V (Proc.devRef .tc main_v6) := by keep_stretch
theorem k2_v6 : StableHlo.after hostOps0_2 V (Proc.devRef .tc main_v6) = V (Proc.devRef .tc main_v6) := by keep_stretch
theorem k3_v8 : StableHlo.after hostOps0_3 V (Proc.devRef .tc main_v8) = V (Proc.devRef .tc main_v8) := by keep_stretch
theorem k4_v8 : StableHlo.after hostOps0_4 V (Proc.devRef .tc main_v8) = V (Proc.devRef .tc main_v8) := by keep_stretch

theorem r0_v3 : StableHlo.after hostOps0 V (Proc.devRef .tc main_v3) = degT (V (Proc.devRef .tc main_arg1)) := by
  dsimp only [hostOps0]
  after_results_simp <;> rfl

theorem r0_v6 : StableHlo.after hostOps0 V (Proc.devRef .tc main_v6) = degT (V (Proc.devRef .tc main_arg2)) := by
  dsimp only [hostOps0]
  after_results_simp <;> rfl

theorem r0_cst2 : StableHlo.after hostOps0 V (Proc.devRef .tc main_cst_2) = (constant (F := Ideal) S_ .f32 0x3F800000#32) := by
  dsimp only [hostOps0]
  after_results_simp <;> rfl

theorem r1_v7 : StableHlo.after hostOps0_1 V (Proc.devRef .tc main_v7)
    = maximumf (F := Ideal) (s := S100000) (φ := .f32) (broadcastInDim (α := Ideal .f32) S100000 ![] Facts₀.bcast_S_S100000 (V (Proc.devRef .tc main_cst_2)))
        (V (Proc.devRef .tc main_v3)) := by
  dsimp only [hostOps0_1]
  after_results_simp <;> rfl

theorem r2_v8 : StableHlo.after hostOps0_2 V (Proc.devRef .tc main_v8)
    = Host.rsqrt (F := Ideal) (s := S100000) (φ := .f32) (V (Proc.devRef .tc main_v7)) := by
  dsimp only [hostOps0_2]
  after_results_simp <;> rfl

theorem r2_cst3 : StableHlo.after hostOps0_2 V (Proc.devRef .tc main_cst_3) = (constant (F := Ideal) S_ .f32 0x3F800000#32) := by
  dsimp only [hostOps0_2]
  after_results_simp <;> rfl

theorem r3_v9 : StableHlo.after hostOps0_3 V (Proc.devRef .tc main_v9)
    = maximumf (F := Ideal) (s := S100000) (φ := .f32) (broadcastInDim (α := Ideal .f32) S100000 ![] Facts₀.bcast_S_S100000 (V (Proc.devRef .tc main_cst_3)))
        (V (Proc.devRef .tc main_v6)) := by
  dsimp only [hostOps0_3]
  after_results_simp <;> rfl

end Stretch

variable (m : (ℓ : Loc nD τ sig) → Buf (Elt Ideal) ℓ) (ρ : Dev nD → PrngReg)

/-! ## Chained from the launch -/

theorem W4_arg0 (c : Dev nD) : W4 m ρ c (Proc.devRef .tc main_arg0) = m ((c : Thread nD τ).loc main_arg0) :=
  (k3_arg0 (W3 m ρ c)).trans ((k2_arg0 (W2 m ρ c)).trans ((k1_arg0 (W1 m ρ c)).trans ((k0_arg0 (W0 m ρ c)).trans rfl)))

theorem W4_arg1 (c : Dev nD) : W4 m ρ c (Proc.devRef .tc main_arg1) = m ((c : Thread nD τ).loc main_arg1) :=
  (k3_arg1 (W3 m ρ c)).trans ((k2_arg1 (W2 m ρ c)).trans ((k1_arg1 (W1 m ρ c)).trans ((k0_arg1 (W0 m ρ c)).trans rfl)))

theorem W4_arg2 (c : Dev nD) : W4 m ρ c (Proc.devRef .tc main_arg2) = m ((c : Thread nD τ).loc main_arg2) :=
  (k3_arg2 (W3 m ρ c)).trans ((k2_arg2 (W2 m ρ c)).trans ((k1_arg2 (W1 m ρ c)).trans ((k0_arg2 (W0 m ρ c)).trans rfl)))

theorem W4_arg4 (c : Dev nD) : W4 m ρ c (Proc.devRef .tc main_arg4) = m ((c : Thread nD τ).loc main_arg4) :=
  (k3_arg4 (W3 m ρ c)).trans ((k2_arg4 (W2 m ρ c)).trans ((k1_arg4 (W1 m ρ c)).trans ((k0_arg4 (W0 m ρ c)).trans rfl)))

theorem W5_arg1 (c : Dev nD) : W5 m ρ c (Proc.devRef .tc main_arg1) = m ((c : Thread nD τ).loc main_arg1) :=
  (k4_arg1 (W4 m ρ c)).trans ((k3_arg1 (W3 m ρ c)).trans ((k2_arg1 (W2 m ρ c)).trans ((k1_arg1 (W1 m ρ c)).trans ((k0_arg1 (W0 m ρ c)).trans rfl))))

theorem W5_arg2 (c : Dev nD) : W5 m ρ c (Proc.devRef .tc main_arg2) = m ((c : Thread nD τ).loc main_arg2) :=
  (k4_arg2 (W4 m ρ c)).trans ((k3_arg2 (W3 m ρ c)).trans ((k2_arg2 (W2 m ρ c)).trans ((k1_arg2 (W1 m ρ c)).trans ((k0_arg2 (W0 m ρ c)).trans rfl))))

theorem W5_arg3 (c : Dev nD) : W5 m ρ c (Proc.devRef .tc main_arg3) = m ((c : Thread nD τ).loc main_arg3) :=
  (k4_arg3 (W4 m ρ c)).trans ((k3_arg3 (W3 m ρ c)).trans ((k2_arg3 (W2 m ρ c)).trans ((k1_arg3 (W1 m ρ c)).trans ((k0_arg3 (W0 m ρ c)).trans rfl))))

theorem W5_arg5 (c : Dev nD) : W5 m ρ c (Proc.devRef .tc main_arg5) = m ((c : Thread nD τ).loc main_arg5) :=
  (k4_arg5 (W4 m ρ c)).trans ((k3_arg5 (W3 m ρ c)).trans ((k2_arg5 (W2 m ρ c)).trans ((k1_arg5 (W1 m ρ c)).trans ((k0_arg5 (W0 m ρ c)).trans rfl))))

theorem W5_arg6 (c : Dev nD) : W5 m ρ c (Proc.devRef .tc main_arg6) = m ((c : Thread nD τ).loc main_arg6) :=
  (k4_arg6 (W4 m ρ c)).trans ((k3_arg6 (W3 m ρ c)).trans ((k2_arg6 (W2 m ρ c)).trans ((k1_arg6 (W1 m ρ c)).trans ((k0_arg6 (W0 m ρ c)).trans rfl))))

theorem W1_v3 (c : Dev nD) : W1 m ρ c (Proc.devRef .tc main_v3) = degT (m ((c : Thread nD τ).loc main_arg1)) :=
  (r0_v3 (W0 m ρ c)).trans rfl

theorem W1_v6 (c : Dev nD) : W1 m ρ c (Proc.devRef .tc main_v6) = degT (m ((c : Thread nD τ).loc main_arg2)) :=
  (r0_v6 (W0 m ρ c)).trans rfl

theorem W1_cst2 (c : Dev nD) : W1 m ρ c (Proc.devRef .tc main_cst_2) = (constant (F := Ideal) S_ .f32 0x3F800000#32) := r0_cst2 (W0 m ρ c)

theorem W2_v7 (c : Dev nD) : W2 m ρ c (Proc.devRef .tc main_v7) = maximumf (broadcastInDim S100000 ![] Facts₀.bcast_S_S100000 (constant (F := Ideal) S_ .f32 0x3F800000#32)) (degT (m ((c : Thread nD τ).loc main_arg1))) := by
  show StableHlo.after hostOps0_1 (W1 m ρ c) (Proc.devRef .tc main_v7) = _
  rw [r1_v7, W1_cst2, W1_v3]

theorem W2_v6 (c : Dev nD) : W2 m ρ c (Proc.devRef .tc main_v6) = degT (m ((c : Thread nD τ).loc main_arg2)) :=
  (k1_v6 (W1 m ρ c)).trans (W1_v6 m ρ c)

theorem W3_v8 (c : Dev nD) : W3 m ρ c (Proc.devRef .tc main_v8) = normT (m ((c : Thread nD τ).loc main_arg1)) := by
  show StableHlo.after hostOps0_2 (W2 m ρ c) (Proc.devRef .tc main_v8) = _
  rw [r2_v8, W2_v7]
  rfl

theorem W3_cst3 (c : Dev nD) : W3 m ρ c (Proc.devRef .tc main_cst_3) = (constant (F := Ideal) S_ .f32 0x3F800000#32) := r2_cst3 (W2 m ρ c)

theorem W3_v6 (c : Dev nD) : W3 m ρ c (Proc.devRef .tc main_v6) = degT (m ((c : Thread nD τ).loc main_arg2)) :=
  (k2_v6 (W2 m ρ c)).trans (W2_v6 m ρ c)

/-- The in-degree floored at one. -/
theorem W4_v9 (c : Dev nD) : W4 m ρ c (Proc.devRef .tc main_v9) = maximumf (broadcastInDim S100000 ![] Facts₀.bcast_S_S100000 (constant (F := Ideal) S_ .f32 0x3F800000#32)) (degT (m ((c : Thread nD τ).loc main_arg2))) := by
  show StableHlo.after hostOps0_3 (W3 m ρ c) (Proc.devRef .tc main_v9) = _
  rw [r3_v9, W3_cst3, W3_v6]

theorem W4_v8 (c : Dev nD) : W4 m ρ c (Proc.devRef .tc main_v8) = normT (m ((c : Thread nD τ).loc main_arg1)) :=
  (k3_v8 (W3 m ρ c)).trans (W3_v8 m ρ c)

theorem W5_v8 (c : Dev nD) : W5 m ρ c (Proc.devRef .tc main_v8) = normT (m ((c : Thread nD τ).loc main_arg1)) :=
  (k4_v8 (W4 m ρ c)).trans (W4_v8 m ρ c)

end Cert.KernelIdeal.KerValue

end
-- ==== Proof.KerRegions.lean ====
/-
  What each of the kernel's two pallas_calls leaves in its output array, as one whole-array function of the four
  arrays it reads, for any contents `V` of the buffers when the region is entered.

  Both regions tile the 100000 node rows into 20 blocks of 5000. At a block the body scales each row of the first
  operand by that row's entry of the one-column second operand, multiplies by the whole weight matrix (a matrix
  product into a zero accumulator: a sum over the 128 contracted features), adds the one-row bias repeated down the
  rows, and — in the first region only — takes the maximum with zero. Changes of float format are the identity on
  the extended reals. Every output block is written back, and the 20 blocks cover the array, so the array after the
  region is the same row-wise function of the whole operands.
-/
import proofs.«178335_j10977936409091_2_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.KerValue

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- Rows scaled, through the weights, plus the bias row, maximum with zero. -/
def denseRelu (A : S100000x128.Idx → EReal) (s : S100000x1.Idx → EReal) (W : S128x128.Idx → EReal) (b : S1x128.Idx → EReal) :
    S100000x128.Idx → EReal := fun i =>
  max ((∑ k : Fin 128, (A (ix2 (i 0) k) * s (ix2 (i 0) (0 : Fin 1))) * W (ix2 k (i 1))) + b (ix2 (0 : Fin 1) (i 1))) 0

/-- Rows scaled, through the weights, plus the bias row. -/
def denseLin (A : S100000x128.Idx → EReal) (s : S100000x1.Idx → EReal) (W : S128x64.Idx → EReal) (b : S1x64.Idx → EReal) :
    S100000x64.Idx → EReal := fun i =>
  (∑ k : Fin 128, (A (ix2 (i 0) k) * s (ix2 (i 0) (0 : Fin 1))) * W (ix2 k (i 1))) + b (ix2 (0 : Fin 1) (i 1))

variable (V : (c : Dev nD) → (b : Ref sig .tc) → Buf (Elt Ideal) ((c : Thread nD τ).loc b))

/-! # The first region -/

/-! ## The body's arithmetic at an index -/

theorem lhsIdx0_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem lhsIdx0_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhsIdx0_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhsIdx0_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The matrix product into a zero accumulator, read at row p and column q: the sum over the contracted feature. -/
theorem matmul0_apply (a : FVec Ideal S5000x128 .bf16) (b : FVec Ideal S128x128 .bf16) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) := by
  simp only [matmul]
  rw [Ideal.matmul_constant_zero_apply,
    ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q)
      ((ValueIdx.contrEquiv1 dot_S5000x128_S128x128_S5000x128_1_0_0_1_n_n 128 rfl rfl).symm k) = ix2 p k :=
    funext fun a => Fin.ext (by
      match a with
      | ⟨0, _⟩ => exact lhsIdx0_0 _ _
      | ⟨1, _⟩ => exact (lhsIdx0_1 _ _).trans hk)
  have er : dot_S5000x128_S128x128_S5000x128_1_0_0_1_n_n.rhsIdx (ix2 p q)
      ((ValueIdx.contrEquiv1 dot_S5000x128_S128x128_S5000x128_1_0_0_1_n_n 128 rfl rfl).symm k) = ix2 k q :=
    funext fun a => Fin.ext (by
      match a with
      | ⟨0, _⟩ => exact (rhsIdx0_0 _ _).trans hk
      | ⟨1, _⟩ => exact rhsIdx0_1 _ _)
  rw [el, er]

/-- A one-column array repeated across 128 columns reads its row's entry. -/
theorem colBroadcast128_apply (x : Vec Ideal S5000x1 .f32) (p : Fin 5000) (k : Fin 128) :
    broadcastTo S5000x128 x broadcasts_S5000x1_S5000x128 (ix2 p k) = x (ix2 p (0 : Fin 1)) :=
  broadcastTo_apply x broadcasts_S5000x1_S5000x128 (ix2 p k) (ix2 p (0 : Fin 1)) (fun a => match a with
    | ⟨0, _⟩ => by show (p : Nat) = if (5000 : Nat) = 1 then 0 else (p : Nat); rw [if_neg (by decide)]
    | ⟨1, _⟩ => by show ((0 : Fin 1) : Nat) = if (1 : Nat) = 1 then 0 else (k : Nat); rw [if_pos rfl]; rfl)

/-- A one-row array repeated down 5000 rows reads its column's entry. -/
theorem rowBroadcast128_apply (x : Vec Ideal S1x128 .f32) (p : Fin 5000) (q : Fin 128) :
    broadcastTo S5000x128 x broadcasts_S1x128_S5000x128 (ix2 p q) = x (ix2 (0 : Fin 1) q) :=
  broadcastTo_apply x broadcasts_S1x128_S5000x128 (ix2 p q) (ix2 (0 : Fin 1) q) (fun a => match a with
    | ⟨0, _⟩ => by show ((0 : Fin 1) : Nat) = if (1 : Nat) = 1 then 0 else (p : Nat); rw [if_pos rfl]; rfl
    | ⟨1, _⟩ => by show (q : Nat) = if (128 : Nat) = 1 then 0 else (q : Nat); rw [if_neg (by decide)])

/-- The first region's body at row p and column q of its blocks. -/
theorem pay0_apply (x0 : Vec Ideal S5000x128 .f32) (x1 : Vec Ideal S5000x1 .f32) (x2 : Vec Ideal S128x128 .f32)
    (x3 : Vec Ideal S1x128 .f32) (p : Fin 5000) (q : Fin 128) :
    k0_pay1 (F := Ideal) x0 x1 x2 x3 (ix2 p q)
      = max ((∑ k : Fin 128, (x0 (ix2 p k) * x1 (ix2 p (0 : Fin 1))) * x2 (ix2 k q)) + x3 (ix2 (0 : Fin 1) q)) 0 := by
  unfold k0_pay1
  rw [maximumf_apply, broadcast_apply, addf_apply, matmul0_apply]
  simp only [shapeCast_self, truncf_apply, mulf_apply]
  rw [show (FloatOps.ofBits (F := Ideal) FTy.f32 0x00000000#32 : EReal) = 0 from Ideal.ofBits_zero_f32]
  rw [rowBroadcast128_apply x3 p q]
  refine congrArg (fun s => max (s + x3 (ix2 (0 : Fin 1) q)) 0) (Finset.sum_congr rfl fun k _ => ?_)
  rw [colBroadcast128_apply x1 p k]

/-- The body at a point whose four blocks are read off four whole arrays where the output index i says. -/
theorem point0 (A : S100000x128.Idx → EReal) (s : S100000x1.Idx → EReal) (W : S128x128.Idx → EReal) (b : S1x128.Idx → EReal)
    (x0 : Vec Ideal S5000x128 .f32) (x1 : Vec Ideal S5000x1 .f32) (x2 : Vec Ideal S128x128 .f32) (x3 : Vec Ideal S1x128 .f32)
    (p : Fin 5000) (q : Fin 128) (i : S100000x128.Idx)
    (h0 : ∀ k : Fin 128, x0 (ix2 p k) = A (ix2 (i 0) k))
    (h1 : x1 (ix2 p (0 : Fin 1)) = s (ix2 (i 0) (0 : Fin 1)))
    (h2 : ∀ k : Fin 128, x2 (ix2 k q) = W (ix2 k (i 1)))
    (h3 : x3 (ix2 (0 : Fin 1) q) = b (ix2 (0 : Fin 1) (i 1))) :
    k0_pay1 (F := Ideal) x0 x1 x2 x3 (ix2 p q) = denseRelu A s W b i := by
  rw [pay0_apply]
  unfold denseRelu
  simp only [h0, h1, h2, h3]

theorem zeroOffsets : (![0, 0] : Fin 2 → Nat) = fun _ => 0 := funext fun a => by fin_cases a <;> rfl

/-- The printed index maps over the 20 points: the two row-blocked inputs move with the output's row block, the
    weights and the bias stay at block zero, and the output's row block is the point's number. -/
theorem indexMaps0 : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem flushed0_eq (c : Dev nD) (t : Fin cfg0.N) :
    (dat0 (F := Ideal) V c).flushed 4 t
      = ((cfg0.win 4).blk t).view.read (Elt Ideal) (denseRelu (V c main_v30) (V c main_v31) (V c main_arg3) (V c main_v32)) := by
  show (cfg0.win 4).cut (grid0.coords t) ((dat0 V c).after 4 t) = _
  rw [after0_4]
  unfold out0_4
  rw [View.canon_unit_zero zeroOffsets]
  simp only [View.ld_unit_zero (S := S5000x128) zeroOffsets, View.ld_unit_zero (S := S5000x1) zeroOffsets,
    View.ld_unit_zero (S := S128x128) zeroOffsets, View.ld_unit_zero (S := S1x128) zeroOffsets]
  obtain ⟨e00, e01, e10, e11, e20, e21, e30, e31, e40, e41⟩ := indexMaps0 t
  funext j
  obtain ⟨p, q, rfl⟩ : ∃ (p : Fin 5000) (q : Fin 128), j = ix2 p q := ⟨j 0, j 1, eq_ix2 (n0 := 5000) (n1 := 128) j⟩
  refine point0 (V c main_v30) (V c main_v31) (V c main_arg3) (V c main_v32) _ _ _ _ p q
    (((cfg0.win 4).blk t).view.emb (ix2 p q)) ?_ ?_ ?_ ?_
  · intro k
    show V c main_v30 (((cfg0.win 0).blk t).view.emb (ix2 p k)) = V c main_v30 _
    refine congrArg (V c main_v30) (funext fun a => Fin.ext ?_)
    match a with
    | ⟨0, _⟩ => show win0_0.index t (0 : Fin 2) * 5000 + 1 * p.val = win0_4.index t (0 : Fin 2) * 5000 + 1 * p.val; omega
    | ⟨1, _⟩ => show win0_0.index t (1 : Fin 2) * 128 + 1 * k.val = k.val; omega
  · show V c main_v31 (((cfg0.win 1).blk t).view.emb (ix2 p (0 : Fin 1))) = V c main_v31 _
    refine congrArg (V c main_v31) (funext fun a => Fin.ext ?_)
    match a with
    | ⟨0, _⟩ => show win0_1.index t (0 : Fin 2) * 5000 + 1 * p.val = win0_4.index t (0 : Fin 2) * 5000 + 1 * p.val; omega
    | ⟨1, _⟩ => show win0_1.index t (1 : Fin 2) * 1 + 1 * ((0 : Fin 1) : Nat) = ((0 : Fin 1) : Nat); omega
  · intro k
    show V c main_arg3 (((cfg0.win 2).blk t).view.emb (ix2 k q)) = V c main_arg3 _
    refine congrArg (V c main_arg3) (funext fun a => Fin.ext ?_)
    match a with
    | ⟨0, _⟩ => show win0_2.index t (0 : Fin 2) * 128 + 1 * k.val = k.val; omega
    | ⟨1, _⟩ => show win0_2.index t (1 : Fin 2) * 128 + 1 * q.val = win0_4.index t (1 : Fin 2) * 128 + 1 * q.val; omega
  · show V c main_v32 (((cfg0.win 3).blk t).view.emb (ix2 (0 : Fin 1) q)) = V c main_v32 _
    refine congrArg (V c main_v32) (funext fun a => Fin.ext ?_)
    match a with
    | ⟨0, _⟩ => show win0_3.index t (0 : Fin 2) * 1 + 1 * ((0 : Fin 1) : Nat) = ((0 : Fin 1) : Nat); omega
    | ⟨1, _⟩ => show win0_3.index t (1 : Fin 2) * 128 + 1 * q.val = win0_4.index t (1 : Fin 2) * 128 + 1 * q.val; omega

/-- An index of the output array is in point t's block iff each coordinate is in the block's range on its axis. -/
theorem mem_block0 (t : Fin cfg0.N) (i : S100000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v33).slice (win0_4.rect t)).set ↔ _
  rw [View.set_slice_whole, Rect.mem_set_unit]
  exact Iff.rfl

/-- Row r of the output array is in the block of point r / 5000; every column is in range. -/
theorem covered0 (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by show (i 0).val / 5000 < 20; omega⟩, rfl⟩
  obtain ⟨-, -, -, -, -, -, -, -, e40, e41⟩ := indexMaps0 t
  refine ⟨t, flush0_4 t, ?_⟩
  rw [mem_block0]
  intro a
  match a with
  | ⟨0, _⟩ =>
    show win0_4.index t (0 : Fin 2) * 5000 ≤ (i 0).val ∧ (i 0).val < win0_4.index t (0 : Fin 2) * 5000 + 5000
    omega
  | ⟨1, _⟩ =>
    show win0_4.index t (1 : Fin 2) * 128 ≤ (i 1).val ∧ (i 1).val < win0_4.index t (1 : Fin 2) * 128 + 128
    omega

/-- The first region's output array after the region. -/
theorem final0 (c : Dev nD) :
    (dat0 (F := Ideal) V c).arrAt 4 cfg0.N = denseRelu (V c main_v30) (V c main_v31) (V c main_arg3) (V c main_v32) := by
  exact (dat0 (F := Ideal) V c).arrAt_eq_of_cover 4 (denseRelu (V c main_v30) (V c main_v31) (V c main_arg3) (V c main_v32))
    (fun t _ => flushed0_eq V c t) covered0

/-! # The second region -/

/-! ## The body's arithmetic at an index -/

theorem lhsIdx1_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl
theorem lhsIdx1_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhsIdx1_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhsIdx1_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

/-- The matrix product into a zero accumulator, read at row p and column q: the sum over the contracted feature. -/
theorem matmul1_apply (a : FVec Ideal S5000x128 .bf16) (b : FVec Ideal S128x64 .bf16) (p : Fin 5000) (q : Fin 64) :
    matmul dot_S5000x128_S128x64_S5000x64_1_0_0_1_n_n none a b (constant (F := Ideal) S5000x64 .f32 0x00000000#32) (ix2 p q)
      = ∑ k : Fin 128, a (ix2 p k) * b (ix2 k q) := by
  simp only [matmul]
  rw [Ideal.matmul_constant_zero_apply,
    ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q)
      ((ValueIdx.contrEquiv1 dot_S5000x128_S128x64_S5000x64_1_0_0_1_n_n 128 rfl rfl).symm k) = ix2 p k :=
    funext fun a => Fin.ext (by
      match a with
      | ⟨0, _⟩ => exact lhsIdx1_0 _ _
      | ⟨1, _⟩ => exact (lhsIdx1_1 _ _).trans hk)
  have er : dot_S5000x128_S128x64_S5000x64_1_0_0_1_n_n.rhsIdx (ix2 p q)
      ((ValueIdx.contrEquiv1 dot_S5000x128_S128x64_S5000x64_1_0_0_1_n_n 128 rfl rfl).symm k) = ix2 k q :=
    funext fun a => Fin.ext (by
      match a with
      | ⟨0, _⟩ => exact (rhsIdx1_0 _ _).trans hk
      | ⟨1, _⟩ => exact rhsIdx1_1 _ _)
  rw [el, er]

/-- A one-row array of 64 repeated down 5000 rows reads its column's entry. -/
theorem rowBroadcast64_apply (x : Vec Ideal S1x64 .f32) (p : Fin 5000) (q : Fin 64) :
    broadcastTo S5000x64 x broadcasts_S1x64_S5000x64 (ix2 p q) = x (ix2 (0 : Fin 1) q) :=
  broadcastTo_apply x broadcasts_S1x64_S5000x64 (ix2 p q) (ix2 (0 : Fin 1) q) (fun a => match a with
    | ⟨0, _⟩ => by show ((0 : Fin 1) : Nat) = if (1 : Nat) = 1 then 0 else (p : Nat); rw [if_pos rfl]; rfl
    | ⟨1, _⟩ => by show (q : Nat) = if (64 : Nat) = 1 then 0 else (q : Nat); rw [if_neg (by decide)])

/-- The second region's body at row p and column q of its blocks. -/
theorem pay1_apply (x0 : Vec Ideal S5000x128 .f32) (x1 : Vec Ideal S5000x1 .f32) (x2 : Vec Ideal S128x64 .f32)
    (x3 : Vec Ideal S1x64 .f32) (p : Fin 5000) (q : Fin 64) :
    k1_pay1 (F := Ideal) x0 x1 x2 x3 (ix2 p q)
      = (∑ k : Fin 128, (x0 (ix2 p k) * x1 (ix2 p (0 : Fin 1))) * x2 (ix2 k q)) + x3 (ix2 (0 : Fin 1) q) := by
  unfold k1_pay1
  rw [addf_apply, matmul1_apply]
  simp only [shapeCast_self, truncf_apply, mulf_apply]
  rw [rowBroadcast64_apply x3 p q]
  refine congrArg (fun s => s + x3 (ix2 (0 : Fin 1) q)) (Finset.sum_congr rfl fun k _ => ?_)
  rw [colBroadcast128_apply x1 p k]

/-- The body at a point whose four blocks are read off four whole arrays where the output index i says. -/
theorem point1 (A : S100000x128.Idx → EReal) (s : S100000x1.Idx → EReal) (W : S128x64.Idx → EReal) (b : S1x64.Idx → EReal)
    (x0 : Vec Ideal S5000x128 .f32) (x1 : Vec Ideal S5000x1 .f32) (x2 : Vec Ideal S128x64 .f32) (x3 : Vec Ideal S1x64 .f32)
    (p : Fin 5000) (q : Fin 64) (i : S100000x64.Idx)
    (h0 : ∀ k : Fin 128, x0 (ix2 p k) = A (ix2 (i 0) k))
    (h1 : x1 (ix2 p (0 : Fin 1)) = s (ix2 (i 0) (0 : Fin 1)))
    (h2 : ∀ k : Fin 128, x2 (ix2 k q) = W (ix2 k (i 1)))
    (h3 : x3 (ix2 (0 : Fin 1) q) = b (ix2 (0 : Fin 1) (i 1))) :
    k1_pay1 (F := Ideal) x0 x1 x2 x3 (ix2 p q) = denseLin A s W b i := by
  rw [pay1_apply]
  unfold denseLin
  simp only [h0, h1, h2, h3]

/-- The printed index maps over the 20 points: the two row-blocked inputs move with the output's row block, the
    weights and the bias stay at block zero, and the output's row block is the point's number. -/
theorem indexMaps1 : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is block t of the whole-array function of the four arrays as the region finds them. -/
theorem flushed1_eq (c : Dev nD) (t : Fin cfg1.N) :
    (dat1 (F := Ideal) V c).flushed 4 t
      = ((cfg1.win 4).blk t).view.read (Elt Ideal) (denseLin (V c main_v33) (V c main_v35) (V c main_arg5) (V c main_v36)) := by
  show (cfg1.win 4).cut (grid1.coords t) ((dat1 V c).after 4 t) = _
  rw [after1_4]
  unfold out1_4
  rw [View.canon_unit_zero zeroOffsets]
  simp only [View.ld_unit_zero (S := S5000x128) zeroOffsets, View.ld_unit_zero (S := S5000x1) zeroOffsets,
    View.ld_unit_zero (S := S128x64) zeroOffsets, View.ld_unit_zero (S := S1x64) zeroOffsets]
  obtain ⟨e00, e01, e10, e11, e20, e21, e30, e31, e40, e41⟩ := indexMaps1 t
  funext j
  obtain ⟨p, q, rfl⟩ : ∃ (p : Fin 5000) (q : Fin 64), j = ix2 p q := ⟨j 0, j 1, eq_ix2 (n0 := 5000) (n1 := 64) j⟩
  refine point1 (V c main_v33) (V c main_v35) (V c main_arg5) (V c main_v36) _ _ _ _ p q
    (((cfg1.win 4).blk t).view.emb (ix2 p q)) ?_ ?_ ?_ ?_
  · intro k
    show V c main_v33 (((cfg1.win 0).blk t).view.emb (ix2 p k)) = V c main_v33 _
    refine congrArg (V c main_v33) (funext fun a => Fin.ext ?_)
    match a with
    | ⟨0, _⟩ => show win1_0.index t (0 : Fin 2) * 5000 + 1 * p.val = win1_4.index t (0 : Fin 2) * 5000 + 1 * p.val; omega
    | ⟨1, _⟩ => show win1_0.index t (1 : Fin 2) * 128 + 1 * k.val = k.val; omega
  · show V c main_v35 (((cfg1.win 1).blk t).view.emb (ix2 p (0 : Fin 1))) = V c main_v35 _
    refine congrArg (V c main_v35) (funext fun a => Fin.ext ?_)
    match a with
    | ⟨0, _⟩ => show win1_1.index t (0 : Fin 2) * 5000 + 1 * p.val = win1_4.index t (0 : Fin 2) * 5000 + 1 * p.val; omega
    | ⟨1, _⟩ => show win1_1.index t (1 : Fin 2) * 1 + 1 * ((0 : Fin 1) : Nat) = ((0 : Fin 1) : Nat); omega
  · intro k
    show V c main_arg5 (((cfg1.win 2).blk t).view.emb (ix2 k q)) = V c main_arg5 _
    refine congrArg (V c main_arg5) (funext fun a => Fin.ext ?_)
    match a with
    | ⟨0, _⟩ => show win1_2.index t (0 : Fin 2) * 128 + 1 * k.val = k.val; omega
    | ⟨1, _⟩ => show win1_2.index t (1 : Fin 2) * 64 + 1 * q.val = win1_4.index t (1 : Fin 2) * 64 + 1 * q.val; omega
  · show V c main_v36 (((cfg1.win 3).blk t).view.emb (ix2 (0 : Fin 1) q)) = V c main_v36 _
    refine congrArg (V c main_v36) (funext fun a => Fin.ext ?_)
    match a with
    | ⟨0, _⟩ => show win1_3.index t (0 : Fin 2) * 1 + 1 * ((0 : Fin 1) : Nat) = ((0 : Fin 1) : Nat); omega
    | ⟨1, _⟩ => show win1_3.index t (1 : Fin 2) * 64 + 1 * q.val = win1_4.index t (1 : Fin 2) * 64 + 1 * q.val; omega

/-- An index of the output array is in point t's block iff each coordinate is in the block's range on its axis. -/
theorem mem_block1 (t : Fin cfg1.N) (i : S100000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v37).slice (win1_4.rect t)).set ↔ _
  rw [View.set_slice_whole, Rect.mem_set_unit]
  exact Iff.rfl

/-- Row r of the output array is in the block of point r / 5000; every column is in range. -/
theorem covered1 (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  obtain ⟨t, ht⟩ : ∃ t : Fin cfg1.N, t.val = (i 0).val / 5000 :=
    ⟨⟨(i 0).val / 5000, by show (i 0).val / 5000 < 20; omega⟩, rfl⟩
  obtain ⟨-, -, -, -, -, -, -, -, e40, e41⟩ := indexMaps1 t
  refine ⟨t, flush1_4 t, ?_⟩
  rw [mem_block1]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 64 ≤ (i 1).val ∧ (i 1).val < win1_4.index t (1 : Fin 2) * 64 + 64
    omega

/-- The second region's output array after the region. -/
theorem final1 (c : Dev nD) :
    (dat1 (F := Ideal) V c).arrAt 4 cfg1.N = denseLin (V c main_v33) (V c main_v35) (V c main_arg5) (V c main_v36) := by
  exact (dat1 (F := Ideal) V c).arrAt_eq_of_cover 4 (denseLin (V c main_v33) (V c main_v35) (V c main_arg5) (V c main_v36))
    (fun t _ => flushed1_eq V c t) covered1

end Cert.KernelIdeal.KerValue

end
-- ==== Proof.KerBound.lean ====
/-
  The kernel's result array after the run is the graph convolution in the arrangement "apply the weights to every
  scaled row, aggregate along the edges, then scale" (`Cert.GraphConv.resultKer`) of the seven arrays as launched.

  At the first region's entry its operands hold the aggregated first-layer messages, the destination-norm column,
  the first weights and the first bias row; the region leaves the hidden layer in its output array. Between the
  regions the source-norm column and a zero row are written; the second region leaves, row by row, the hidden row
  scaled by its source norm through the second weights. The last stretch gathers those rows along the edges,
  scatters them into the destination rows, scales by the destination norm and adds the second bias.
-/
import proofs.«178335_j10977936409091_2_alg».proof.Proof.KerCarry
import proofs.«178335_j10977936409091_2_alg».proof.Proof.KerRegions

set_option maxRecDepth 16384

noncomputable section

namespace Cert.KernelIdeal.KerValue

open Cert.KernelIdeal Cert.KernelIdeal.Gen
open Idealize.ShloMosaic Idealize.ShloMosaic.TcCoe Idealize.ShloMosaic.StableHlo Idealize.ShloMosaic.ValueIdx
open Idealize.ShloMosaic.GraphConvAlgebra Cert.GraphConv
open Idealize.SL.Sem

/-! ## The stretch between the regions keeps what it does not write -/

section Keep
variable (V : Valuation τ sig (Elt Ideal))
theorem s5_keep_v33 : StableHlo.after hostOps1 V (Proc.devRef .tc main_v33) = V (Proc.devRef .tc main_v33) := by
  dsimp only [hostOps1]
  after_results_simp <;> rfl

theorem s5_keep_arg5 : StableHlo.after hostOps1 V (Proc.devRef .tc main_arg5) = V (Proc.devRef .tc main_arg5) := by
  dsimp only [hostOps1]
  after_results_simp <;> rfl

theorem s5_keep_arg1 : StableHlo.after hostOps1 V (Proc.devRef .tc main_arg1) = V (Proc.devRef .tc main_arg1) := by
  dsimp only [hostOps1]
  after_results_simp <;> rfl

theorem s5_keep_arg2 : StableHlo.after hostOps1 V (Proc.devRef .tc main_arg2) = V (Proc.devRef .tc main_arg2) := by
  dsimp only [hostOps1]
  after_results_simp <;> rfl

theorem s5_keep_arg6 : StableHlo.after hostOps1 V (Proc.devRef .tc main_arg6) = V (Proc.devRef .tc main_arg6) := by
  dsimp only [hostOps1]
  after_results_simp <;> rfl

theorem s5_keep_v10 : StableHlo.after hostOps1 V (Proc.devRef .tc main_v10) = V (Proc.devRef .tc main_v10) := by
  dsimp only [hostOps1]
  after_results_simp <;> rfl

end Keep

variable (m : (ℓ : Loc nD τ sig) → Buf (Elt Ideal) ℓ) (ρ : Dev nD → PrngReg)

/-! ## The first region's operands -/

theorem W5_v30 (c : Dev nD) : W5 m ρ c (Proc.devRef .tc main_v30) = agg1T (m ((c : Thread nD τ).loc main_arg0)) (m ((c : Thread nD τ).loc main_arg1)) (m ((c : Thread nD τ).loc main_arg2)) := by
  show StableHlo.after hostOps0_4 (W4 m ρ c) (Proc.devRef .tc main_v30) = _
  rw [s4_v30, W4_arg0, W4_arg1, W4_arg2, W4_v8]
  exact agg1Tp_normT _ _ _

theorem W5_v31 (c : Dev nD) : W5 m ρ c (Proc.devRef .tc main_v31) = normColT (m ((c : Thread nD τ).loc main_arg2)) := by
  show StableHlo.after hostOps0_4 (W4 m ρ c) (Proc.devRef .tc main_v31) = _
  rw [s4_v31, W4_v9]
  rfl

theorem W5_v10 (c : Dev nD) : W5 m ρ c (Proc.devRef .tc main_v10) = normT (m ((c : Thread nD τ).loc main_arg2)) := by
  show StableHlo.after hostOps0_4 (W4 m ρ c) (Proc.devRef .tc main_v10) = _
  rw [s4_v10, W4_v9]
  rfl

theorem W5_v32 (c : Dev nD) : W5 m ρ c (Proc.devRef .tc main_v32) = biasRowT (m ((c : Thread nD τ).loc main_arg4)) := by
  show StableHlo.after hostOps0_4 (W4 m ρ c) (Proc.devRef .tc main_v32) = _
  rw [s4_v32, W4_arg4]

/-! ## The first region's output, and the second region's operands -/

theorem W6_v33 (c : Dev nD) : W6 m ρ c (Proc.devRef .tc main_v33)
    = denseRelu (agg1T (m ((c : Thread nD τ).loc main_arg0)) (m ((c : Thread nD τ).loc main_arg1)) (m ((c : Thread nD τ).loc main_arg2))) (normColT (m ((c : Thread nD τ).loc main_arg2))) (m ((c : Thread nD τ).loc main_arg3)) (biasRowT (m ((c : Thread nD τ).loc main_arg4))) := by
  refine (W6_arr m ρ c 4).trans ?_
  rw [final0 (V5 m ρ) c]
  show denseRelu (W5 m ρ c (Proc.devRef .tc main_v30)) (W5 m ρ c (Proc.devRef .tc main_v31))
    (W5 m ρ c (Proc.devRef .tc main_arg3)) (W5 m ρ c (Proc.devRef .tc main_v32)) = _
  rw [W5_v30, W5_v31, W5_arg3, W5_v32]

theorem W7_v33 (c : Dev nD) : W7 m ρ c (Proc.devRef .tc main_v33)
    = denseRelu (agg1T (m ((c : Thread nD τ).loc main_arg0)) (m ((c : Thread nD τ).loc main_arg1)) (m ((c : Thread nD τ).loc main_arg2))) (normColT (m ((c : Thread nD τ).loc main_arg2))) (m ((c : Thread nD τ).loc main_arg3)) (biasRowT (m ((c : Thread nD τ).loc main_arg4))) :=
  (s5_keep_v33 (W6 m ρ c)).trans (W6_v33 m ρ c)

theorem W7_v35 (c : Dev nD) : W7 m ρ c (Proc.devRef .tc main_v35) = normColT (m ((c : Thread nD τ).loc main_arg1)) := by
  show StableHlo.after hostOps1 (W6 m ρ c) (Proc.devRef .tc main_v35) = _
  rw [s5_v35, W6_of_ne m ρ c main_v8 (by decide), W5_v8]
  rfl

theorem W7_v36 (c : Dev nD) : W7 m ρ c (Proc.devRef .tc main_v36) = zeroRowT := s5_v36 (W6 m ρ c)

theorem W7_arg5 (c : Dev nD) : W7 m ρ c (Proc.devRef .tc main_arg5) = (m ((c : Thread nD τ).loc main_arg5)) :=
  (s5_keep_arg5 (W6 m ρ c)).trans ((W6_of_ne m ρ c main_arg5 (by decide)).trans (W5_arg5 m ρ c))

/-! ## The second region's output, and what the last stretch reads -/

/-- The hidden layer as the first region leaves it. -/
abbrev hiddenT (c : Dev nD) : S100000x128.Idx → EReal :=
  denseRelu (agg1T (m ((c : Thread nD τ).loc main_arg0)) (m ((c : Thread nD τ).loc main_arg1)) (m ((c : Thread nD τ).loc main_arg2))) (normColT (m ((c : Thread nD τ).loc main_arg2))) (m ((c : Thread nD τ).loc main_arg3)) (biasRowT (m ((c : Thread nD τ).loc main_arg4)))

theorem W8_v37 (c : Dev nD) : W8 m ρ c (Proc.devRef .tc main_v37)
    = denseLin (hiddenT m c) (normColT (m ((c : Thread nD τ).loc main_arg1))) (m ((c : Thread nD τ).loc main_arg5)) zeroRowT := by
  refine (W8_arr m ρ c 4).trans ?_
  rw [final1 (V7 m ρ) c]
  show denseLin (W7 m ρ c (Proc.devRef .tc main_v33)) (W7 m ρ c (Proc.devRef .tc main_v35))
    (W7 m ρ c (Proc.devRef .tc main_arg5)) (W7 m ρ c (Proc.devRef .tc main_v36)) = _
  rw [W7_v33, W7_v35, W7_arg5, W7_v36]

theorem W8_arg1 (c : Dev nD) : W8 m ρ c (Proc.devRef .tc main_arg1) = (m ((c : Thread nD τ).loc main_arg1)) :=
  (W8_of_ne m ρ c main_arg1 (by decide)).trans ((s5_keep_arg1 (W6 m ρ c)).trans ((W6_of_ne m ρ c main_arg1 (by decide)).trans (W5_arg1 m ρ c)))

theorem W8_arg2 (c : Dev nD) : W8 m ρ c (Proc.devRef .tc main_arg2) = (m ((c : Thread nD τ).loc main_arg2)) :=
  (W8_of_ne m ρ c main_arg2 (by decide)).trans ((s5_keep_arg2 (W6 m ρ c)).trans ((W6_of_ne m ρ c main_arg2 (by decide)).trans (W5_arg2 m ρ c)))

theorem W8_arg6 (c : Dev nD) : W8 m ρ c (Proc.devRef .tc main_arg6) = (m ((c : Thread nD τ).loc main_arg6)) :=
  (W8_of_ne m ρ c main_arg6 (by decide)).trans ((s5_keep_arg6 (W6 m ρ c)).trans ((W6_of_ne m ρ c main_arg6 (by decide)).trans (W5_arg6 m ρ c)))

theorem W8_v10 (c : Dev nD) : W8 m ρ c (Proc.devRef .tc main_v10) = normT (m ((c : Thread nD τ).loc main_arg2)) :=
  (W8_of_ne m ρ c main_v10 (by decide)).trans ((s5_keep_v10 (W6 m ρ c)).trans ((W6_of_ne m ρ c main_v10 (by decide)).trans (W5_v10 m ρ c)))

/-- The result buffer after the run, as the stage terms of the launch arrays. -/
theorem W9_v53 (c : Dev nD) : W9 m ρ c (Proc.devRef .tc main_v53)
    = tailT (denseLin (hiddenT m c) (normColT (m ((c : Thread nD τ).loc main_arg1))) (m ((c : Thread nD τ).loc main_arg5)) zeroRowT) (m ((c : Thread nD τ).loc main_arg1)) (m ((c : Thread nD τ).loc main_arg2)) (m ((c : Thread nD τ).loc main_arg6)) := by
  show StableHlo.after hostOps2 (W8 m ρ c) (Proc.devRef .tc main_v53) = _
  rw [s6_v53, W8_v37, W8_arg1, W8_arg2, W8_arg6, W8_v10]
  exact tailTp_normT _ _ _ _

/-! ## Index by index -/

/-- The first region's output at `(n, k)` is the specification's hidden layer. -/
theorem hiddenT_apply (c : Dev nD) (n : Fin 100000) (k : Fin 128) :
    hiddenT m c (ix2 n k) = hiddenAt (m ((c : Thread nD τ).loc main_arg0)) (m ((c : Thread nD τ).loc main_arg1)) (m ((c : Thread nD τ).loc main_arg2)) (m ((c : Thread nD τ).loc main_arg3)) (m ((c : Thread nD τ).loc main_arg4)) n k := by
  show max ((∑ k' : Fin 128, (agg1T (m ((c : Thread nD τ).loc main_arg0)) (m ((c : Thread nD τ).loc main_arg1)) (m ((c : Thread nD τ).loc main_arg2)) (ix2 n k') * normColT (m ((c : Thread nD τ).loc main_arg2)) (ix2 n (0 : Fin 1))) * (m ((c : Thread nD τ).loc main_arg3)) (ix2 k' k))
    + biasRowT (m ((c : Thread nD τ).loc main_arg4)) (ix2 (0 : Fin 1) k)) 0 = _
  simp only [agg1T_apply, normColT_apply, biasRowT_apply]
  rfl

/-- THE RESULT: after the run the result buffer holds `resultKer` of the arrays as launched. -/
theorem W9_v53_eq (c : Dev nD) : W9 m ρ c (Proc.devRef .tc main_v53)
    = resultKer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [W9_v53]
  funext i
  obtain ⟨p, q, rfl⟩ : ∃ (p : Fin 100000) (q : Fin 64), i = ix2 p q := ⟨i 0, i 1, eq_ix2 i⟩
  rw [tailT_apply]
  show _ = kerOut (readsOf (m ((c : Thread nD τ).loc main_arg1))) (landsBy (m ((c : Thread nD τ).loc main_arg2))) (normBy (m ((c : Thread nD τ).loc main_arg1))) (normBy (m ((c : Thread nD τ).loc main_arg2)))
    (hiddenAt (m ((c : Thread nD τ).loc main_arg0)) (m ((c : Thread nD τ).loc main_arg1)) (m ((c : Thread nD τ).loc main_arg2)) (m ((c : Thread nD τ).loc main_arg3)) (m ((c : Thread nD τ).loc main_arg4))) (fun k j => (m ((c : Thread nD τ).loc main_arg5)) (ix2 k j)) (fun j => (m ((c : Thread nD τ).loc main_arg6)) (ix1 j)) p q
  unfold kerOut
  have hrow : ∀ (n : Fin 100000), denseLin (hiddenT m c) (normColT (m ((c : Thread nD τ).loc main_arg1))) (m ((c : Thread nD τ).loc main_arg5)) zeroRowT (ix2 n q)
      = (∑ k : Fin 128, (hiddenAt (m ((c : Thread nD τ).loc main_arg0)) (m ((c : Thread nD τ).loc main_arg1)) (m ((c : Thread nD τ).loc main_arg2)) (m ((c : Thread nD τ).loc main_arg3)) (m ((c : Thread nD τ).loc main_arg4)) n k * normBy (m ((c : Thread nD τ).loc main_arg1)) n) * (m ((c : Thread nD τ).loc main_arg5)) (ix2 k q)) + 0 := by
    intro n
    show (∑ k : Fin 128, (hiddenT m c (ix2 n k) * normColT (m ((c : Thread nD τ).loc main_arg1)) (ix2 n (0 : Fin 1))) * (m ((c : Thread nD τ).loc main_arg5)) (ix2 k q))
      + zeroRowT (ix2 (0 : Fin 1) q) = _
    simp only [hiddenT_apply, normColT_apply, zeroRowT_apply]
  have hfun : (fun e => (denseLin (hiddenT m c) (normColT (m ((c : Thread nD τ).loc main_arg1))) (m ((c : Thread nD τ).loc main_arg5)) zeroRowT (ix2 (readsOf (m ((c : Thread nD τ).loc main_arg1)) e) q) : EReal))
      = fun e => (∑ k : Fin 128, (hiddenAt (m ((c : Thread nD τ).loc main_arg0)) (m ((c : Thread nD τ).loc main_arg1)) (m ((c : Thread nD τ).loc main_arg2)) (m ((c : Thread nD τ).loc main_arg3)) (m ((c : Thread nD τ).loc main_arg4)) (readsOf (m ((c : Thread nD τ).loc main_arg1)) e) k
          * normBy (m ((c : Thread nD τ).loc main_arg1)) (readsOf (m ((c : Thread nD τ).loc main_arg1)) e)) * (m ((c : Thread nD τ).loc main_arg5)) (ix2 k q)) + 0 :=
    funext fun e => hrow (readsOf (m ((c : Thread nD τ).loc main_arg1)) e)
  rw [hfun]

end Cert.KernelIdeal.KerValue

end
-- ==== Proof.lean ====
/-
  A two-layer normalised graph convolution (degrees by scatter-add of ones, norms the reciprocal square roots of the
  degrees floored at one, rows gathered along 1.6 million edges and scattered into 100000 destination rows), computed
  two ways.

  The reference, in each layer, scales the rows by the source norm, aggregates them along the edges, scales by the
  destination norm, and THEN applies the weights and the bias. The kernel's first layer does the same with the
  dense part (scale, weights, bias, maximum with zero) in a pallas_call tiled over the node rows; in its second layer
  it applies the weights to every scaled row FIRST — 128 features down to 64 — in a second pallas_call, and only then
  gathers, aggregates along the edges, scales by the destination norm and adds the bias. On the extended reals a
  change of float format is the identity, a matrix product into a zero accumulator is the plain sum of products, and
  the two programs compute the norms, the gathers and the first layer by the same operations. The second layers
  differ by exchanging a sum over edges with a sum over features and distributing the real factors: true when every
  entry is a real number, which is what the precondition (every float input finite) gives, the norms being reciprocal
  square roots of counts floored at one. With an infinite entry the exchange can fail, so the precondition is used.

  The kernel's value is read off its run: the contents of the result buffer at the last segment boundary, folded
  back through the last stretch, the second region's blocks, the stretch between, the first region's blocks and the
  stretches before, down to the arrays as launched. The reference's value is its generated run read one operation
  at a time. The idealization rewrote no operation, so it preserves the kernel trivially.
-/
import proofs.«178335_j10977936409091_2_alg».proof.Defs
import proofs.«178335_j10977936409091_2_alg».proof.Proof.Gen.Kernel
import proofs.«178335_j10977936409091_2_alg».proof.Proof.Gen.Kernel.Skeleton
import proofs.«178335_j10977936409091_2_alg».proof.Proof.Gen.Kernel.Launch
import proofs.«178335_j10977936409091_2_alg».proof.Proof.Gen.Kernel.Points
import proofs.«178335_j10977936409091_2_alg».proof.Proof.Gen.Kernel.Frame
import proofs.«178335_j10977936409091_2_alg».proof.Proof.Gen.KernelIdeal
import proofs.«178335_j10977936409091_2_alg».proof.Proof.Gen.KernelIdeal.Skeleton
import proofs.«178335_j10977936409091_2_alg».proof.Proof.Gen.KernelIdeal.Launch
import proofs.«178335_j10977936409091_2_alg».proof.Proof.Gen.KernelIdeal.Points
import proofs.«178335_j10977936409091_2_alg».proof.Proof.Gen.KernelIdeal.Frame
import proofs.«178335_j10977936409091_2_alg».proof.Proof.Gen.ReferenceIdeal
import proofs.«178335_j10977936409091_2_alg».proof.Proof.Gen.ReferenceIdeal.Run
import proofs.«178335_j10977936409091_2_alg».proof.Proof.Gen.ReferenceIdeal.Read
import proofs.«178335_j10977936409091_2_alg».proof.Proof.Gen.Pre_finite_inputs
import proofs.«178335_j10977936409091_2_alg».proof.Proof.GraphConvSpec
import proofs.«178335_j10977936409091_2_alg».proof.Proof.FiniteInputs
import proofs.«178335_j10977936409091_2_alg».proof.Proof.RefValue
import proofs.«178335_j10977936409091_2_alg».proof.Proof.KerRun
import proofs.«178335_j10977936409091_2_alg».proof.Proof.KerBound
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs end with the result at the graph convolution of the arguments: the kernel in the
    arrangement "weights first", the reference in the arrangement "aggregate first"; on the finite inputs the
    precondition grants they are one function. -/
theorem algebraic : Cert.algebraic_KernelIdeal_ReferenceIdeal := by
  intro m ρ m' ρ' hpre hagree
  refine ⟨fun c => Cert.GraphConv.resultKer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.KerValue.W9_v53_eq m ρ c), (h c).2⟩)
      (Cert.KernelIdeal.KerValue.run_value (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v62_eq, Cert.ReferenceIdeal.RefValue.val_eq_resultRef,
      (hagree c).1, (hagree c).2.1, (hagree c).2.2.1, (hagree c).2.2.2.1, (hagree c).2.2.2.2.1, (hagree c).2.2.2.2.2.1,
      (hagree c).2.2.2.2.2.2]
    obtain ⟨h0, h3, h4, h5, -⟩ := Cert.FiniteInputs.real_of_pre _ _ _ _ _ _ _ (hpre c)
    exact (Cert.GraphConv.resultKer_eq_resultRef _ _ _ _ _ _ _ h0 h3 h4 h5).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
